-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256 .f32) (main_arg6 : FVec F S256x1 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩
abbrev S50000x1 : Shape := ⟨2, ![50000, 1]⟩
abbrev S2000x1 : Shape := ⟨2, ![2000, 1]⟩
abbrev S1x1 : Shape := ⟨2, ![1, 1]⟩

abbrev nBuf : Space → Nat
  | .hbm => 119
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .bf16⟩
  | .hbm, ⟨49, _⟩ => ⟨S256x256, .bf16⟩
  | .hbm, ⟨50, _⟩ => ⟨S50000x256, .f32⟩
  | .hbm, ⟨51, _⟩ => ⟨S850000x1, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x256, .f32⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S50000x256, .bf16⟩
  | .hbm, ⟨74, _⟩ => ⟨S256x256, .bf16⟩
  | .hbm, ⟨75, _⟩ => ⟨S50000x256, .f32⟩
  | .hbm, ⟨76, _⟩ => ⟨S850000x1, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x256, .f32⟩
  | .hbm, ⟨86, _⟩ => ⟨S850000x256, .f32⟩
  | .hbm, ⟨87, _⟩ => ⟨S850000x256, .f32⟩
  | .hbm, ⟨88, _⟩ => ⟨S_, .f32⟩
  | .hbm, ⟨89, _⟩ => ⟨S50000x256, .f32⟩
  | .hbm, ⟨90, _⟩ => ⟨S850000x1, .i32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | .hbm, ⟨95, _⟩ => ⟨S_, .f32⟩
  | .hbm, ⟨96, _⟩ => ⟨S50000x256, .f32⟩
  | .hbm, ⟨97, _⟩ => ⟨S50000x256, .f32⟩
  | .hbm, ⟨98, _⟩ => ⟨S50000x256, .bf16⟩
  | .hbm, ⟨99, _⟩ => ⟨S256x1, .bf16⟩
  | .hbm, ⟨100, _⟩ => ⟨S50000x1, .f32⟩
  | .hbm, ⟨101, _⟩ => ⟨S850000x1, .f32⟩
  | .hbm, ⟨102, _⟩ => ⟨S_, .i32⟩
  | .hbm, ⟨103, _⟩ => ⟨S850000, .i32⟩
  | .hbm, ⟨104, _⟩ => ⟨S850000, .i1⟩
  | .hbm, ⟨105, _⟩ => ⟨S_, .i32⟩
  | .hbm, ⟨106, _⟩ => ⟨S850000, .i32⟩
  | .hbm, ⟨107, _⟩ => ⟨S850000, .i32⟩
  | .hbm, ⟨108, _⟩ => ⟨S850000, .i32⟩
  | .hbm, ⟨109, _⟩ => ⟨S850000x1, .i32⟩
  | .hbm, ⟨110, _⟩ => ⟨S850000x1, .f32⟩
  | .hbm, ⟨111, _⟩ => ⟨S850000x1, .f32⟩
  | .hbm, ⟨112, _⟩ => ⟨S_, .f32⟩
  | .hbm, ⟨113, _⟩ => ⟨S50000x1, .f32⟩
  | .hbm, ⟨114, _⟩ => ⟨S850000x1, .i32⟩
  | .hbm, ⟨115, _⟩ => ⟨S50000x1, .f32⟩
  | .hbm, ⟨116, _⟩ => ⟨S1x1, .f32⟩
  | .hbm, ⟨117, _⟩ => ⟨S50000x1, .f32⟩
  | .hbm, ⟨118, _⟩ => ⟨S50000x1, .f32⟩
  | .local _ .vmem, ⟨0, _⟩ => ⟨S2000x256, .bf16⟩
  | .local _ .vmem, ⟨1, _⟩ => ⟨S2000x256, .bf16⟩
  | .local _ .vmem, ⟨2, _⟩ => ⟨S256x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .bf16⟩
  | .local _ .vmem, ⟨6, _⟩ => ⟨S2000x256, .bf16⟩
  | .local _ .vmem, ⟨7, _⟩ => ⟨S256x256, .bf16⟩
  | .local _ .vmem, ⟨8, _⟩ => ⟨S2000x256, .f32⟩
  | .local _ .vmem, ⟨9, _⟩ => ⟨S2000x256, .f32⟩
  | .local _ .vmem, ⟨10, _⟩ => ⟨S2000x256, .bf16⟩
  | .local _ .vmem, ⟨11, _⟩ => ⟨S2000x256, .bf16⟩
  | .local _ .vmem, ⟨12, _⟩ => ⟨S256x1, .bf16⟩
  | .local _ .vmem, ⟨13, _⟩ => ⟨S2000x1, .f32⟩
  | .local _ .vmem, ⟨14, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_12 : Ref sig .tc := ⟨.hbm, 102, rfl⟩
abbrev main_v74 : Ref sig .tc := ⟨.hbm, 103, rfl⟩
abbrev main_v75 : Ref sig .tc := ⟨.hbm, 104, rfl⟩
abbrev main_c_13 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_14 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S2000x1_S2000x1_0_0 : ∀ a, (![0, 0] : Fin 2 → Nat) a + S2000x1.size a ≤ S2000x1.size a
  h_S2000x1 : 0 < S2000x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x1_S2000x1_1_0_0_1_n_n_wf : DotDims.WF S2000x256 S256x1 S2000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .bf16 = 32 ∨ (Rect.block (s := S50000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S256x1.size a
  hwx2_1 : ∀ i : grid2.Coords, EltTy.bits .bf16 = 32 ∨ (Rect.block (s := S256x1) S256x1.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_v30) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S256x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S2000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S850000x1, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S850000x1, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x256, .f32⟩
  | .hbm, ⟨82, _⟩ => ⟨S850000x256, .f32⟩
  | .hbm, ⟨83, _⟩ => ⟨S850000x256, .f32⟩
  | .hbm, ⟨84, _⟩ => ⟨S_, .f32⟩
  | .hbm, ⟨85, _⟩ => ⟨S50000x256, .f32⟩
  | .hbm, ⟨86, _⟩ => ⟨S850000x1, .i32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S50000x1, .f32⟩
  | .hbm, ⟨95, _⟩ => ⟨S850000x1, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000x1, .f32⟩
  | .hbm, ⟨105, _⟩ => ⟨S850000x1, .f32⟩
  | .hbm, ⟨106, _⟩ => ⟨S_, .f32⟩
  | .hbm, ⟨107, _⟩ => ⟨S50000x1, .f32⟩
  | .hbm, ⟨108, _⟩ => ⟨S850000x1, .i32⟩
  | .hbm, ⟨109, _⟩ => ⟨S50000x1, .f32⟩
  | .hbm, ⟨110, _⟩ => ⟨S1x1, .f32⟩
  | .hbm, ⟨111, _⟩ => ⟨S50000x1, .f32⟩
  | .hbm, ⟨112, _⟩ => ⟨S50000x1, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x1_S50000x1_1_0_0_1_n_n_wf : DotDims.WF S50000x256 S256x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.KernelRun.lean ====
/-
  The idealized kernel's run with its result NAMED. The program is three pipelined matrix products among stretches of host
  operations; between two segments the TensorCore's unscoped buffers hold a known valuation, the fold of the host
  operations and of the regions' write-backs from the launch memory. Every weakly fair execution terminates with each
  unscoped buffer at the last valuation of that fold; read at the result buffer this names the program's result, and
  read at the argument buffers it gives back the launch contents.
-/
import proofs.«112917_j66383014527488_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    valuation of the fold through the program, and every argument array ends as launched. -/
theorem run_value : θ_run defs (onTc (τ := τ) (main (F := F))) ⟨m, fun _ => 0, ρ⟩ (fun r => ∀ c : Dev nD,
      r.2.mem ((c.tc : Thread nD τ).loc main_v87) = W13 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v87 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.RunValue

end
-- ==== Proof.HostSpec.lean ====
/-
  The host arithmetic both programs share, as closed functions of arrays over the extended reals (integers as 32-bit words).
  A graph convolution layer over 50000 nodes and 850000 edges (the 800000 given edges followed by one self loop per node):
  * `src e`, `dst e`: the endpoints of every edge, the two rows of the edge list each followed by 0 … 49999;
  * `wrap n`: an index below zero is read from the end (n + 50000), the form jnp indexing lowers to before a gather;
  * `deg d`: the number of edges into each node, a scatter-add of ones along `dst`;
  * `dinv d`: `deg^(-1/2)` where the degree is positive, else zero;
  * `norm s d`: the weight of every edge, `dinv[src] · dinv[dst]`;
  * `layer nrm s d raw b`: the aggregation `out[d(j)] += nrm(j) · raw[s(j)]` over all edges `j`, plus the bias row;
    `out nrm s d raw b` the same for a single output column; `relu` the rectifier.
  The three dense products `raw = h · W` are NOT here: they are what the two programs compute differently.
-/
import proofs.«112917_j66383014527488_1_alg».proof.Proof.Gen.KernelIdeal
import Idealize.ShloMosaic.PureOps.Ideal

noncomputable section

namespace Cert.KernelIdeal.HostSpec

open Cert.KernelIdeal Cert.KernelIdeal.Gen Idealize.ShloMosaic

/-- One row of the edge list followed by the self loops 0 … 49999. -/
def ends (row : Fin 2 → Nat) (hrow : S2x800000.Slices row S1x800000) (e : IVec S2x800000 32) : IVec S850000 32 :=
  concatenate S850000 0 [⟨S800000, (shapeCast S800000 (extractStridedSlice S1x800000 row e hrow) shapeCasts_S1x800000_S800000 : IVec S800000 32)⟩,
    ⟨S50000, (iotaInDim S50000 32 0 : IVec S50000 32)⟩] concatenates_S800000_S50000_S850000_d0

/-- The source node of every edge. -/
def src (e : IVec S2x800000 32) : IVec S850000 32 := ends ![0, 0] slices_S2x800000_S1x800000_0_0 e
/-- The destination node of every edge. -/
def dst (e : IVec S2x800000 32) : IVec S850000 32 := ends ![1, 0] slices_S2x800000_S1x800000_1_0 e

/-- An index below zero counts from the end. -/
def wrap (n : IVec S850000 32) : IVec S850000 32 :=
  select (cmpi .slt n (broadcastInDim S850000 ![] bcast_S_S850000 (constantI S_ 32 0#32)))
    (addi n (broadcastInDim S850000 ![] bcast_S_S850000 (constantI S_ 32 50000#32))) n

/-- A vector of indices as the one-column array a gather or scatter takes. -/
def col (n : IVec S850000 32) : IVec S850000x1 32 := broadcastInDim S850000x1 ![0] bcast_S850000_S850000x1_0 n
/-- A vector of edge weights as a one-column array. -/
def fcol (w : FVec Ideal S850000 .f32) : FVec Ideal S850000x1 .f32 := broadcastInDim S850000x1 ![0] bcast_S850000_S850000x1_0 w

/-- The in-degree of every node, counted with the self loop. -/
def deg (d : IVec S850000 32) : FVec Ideal S50000 .f32 :=
  Host.scatterAdd (F := Ideal) scatter_S50000_S850000x1_S850000_n_0_0_1
    (broadcastInDim S50000 ![] bcast_S_S50000 (constant (F := Ideal) S_ .f32 0x00000000#32)) (col d)
    (broadcastInDim S850000 ![] bcast_S_S850000 (constant (F := Ideal) S_ .f32 0x3F800000#32))

/-- The zero the comparison and the select use, on every node. -/
def zeros : FVec Ideal S50000 .f32 := broadcastInDim S50000 ![] bcast_S_S50000 (constant (F := Ideal) S_ .f32 0x00000000#32)

/-- Where the degree is positive. -/
def pos (d : IVec S850000 32) : IVec S50000 1 := cmpf (F := Ideal) .ogt (deg d) zeros
/-- The reciprocal square root of the degree. -/
def rs (d : IVec S850000 32) : FVec Ideal S50000 .f32 := Host.rsqrt (F := Ideal) (deg d)

/-- The select between the reciprocal square root and a scalar spread over the nodes. -/
def dinvOf (p : IVec S50000 1) (r : FVec Ideal S50000 .f32) (z : FVec Ideal S_ .f32) : FVec Ideal S50000 .f32 :=
  select p r (broadcastInDim S50000 ![] bcast_S_S50000 (id z))

/-- `deg^(-1/2)` where the degree is positive, zero elsewhere. -/
def dinv (d : IVec S850000 32) : FVec Ideal S50000 .f32 :=
  dinvOf (pos d) (rs d) (constant (F := Ideal) S_ .f32 0x00000000#32)

/-- The weight of every edge from the nodes' factors: `dv[src] · dv[dst]`. -/
def edge (dv : FVec Ideal S50000 .f32) (s d : IVec S850000 32) : FVec Ideal S850000 .f32 :=
  mulf (F := Ideal) (Host.gather gather_S50000_S850000x1_S850000_n_0_n_n_0_1_1 dv (col (wrap s)))
    (Host.gather gather_S50000_S850000x1_S850000_n_0_n_n_0_1_1 dv (col (wrap d)))

/-- The weight of every edge: `dinv[src] · dinv[dst]`. -/
def norm (s d : IVec S850000 32) : FVec Ideal S850000 .f32 := edge (dinv d) s d

/-- One layer's aggregation over the edges plus the bias row, 256 features. -/
def layer (nrm : FVec Ideal S850000 .f32) (s d : IVec S850000 32) (raw : FVec Ideal S50000x256 .f32) (b : FVec Ideal S256 .f32) :
    FVec Ideal S50000x256 .f32 :=
  addf (F := Ideal) (Host.scatterAdd (F := Ideal) scatter_S50000x256_S850000x1_S850000x256_1_0_0_1
      (broadcastInDim S50000x256 ![] bcast_S_S50000x256 (constant (F := Ideal) S_ .f32 0x00000000#32)) (col d)
      (mulf (F := Ideal) (broadcastInDim S850000x256 ![0, 1] bcast_S850000x1_S850000x256_0_1 (fcol nrm))
        (Host.gather gather_S50000x256_S850000x1_S850000x256_1_0_n_n_0_1_1256 raw (col (wrap s)))))
    (broadcastInDim S50000x256 ![0, 1] bcast_S1x256_S50000x256_0_1 (broadcastInDim S1x256 ![1] bcast_S256_S1x256_1 b))

/-- The rectifier on a 50000 × 256 array. -/
def relu (x : FVec Ideal S50000x256 .f32) : FVec Ideal S50000x256 .f32 :=
  maximumf (F := Ideal) x (broadcastInDim S50000x256 ![] bcast_S_S50000x256 (constant (F := Ideal) S_ .f32 0x00000000#32))

/-- The last layer's aggregation, one output column, plus its bias. -/
def out (nrm : FVec Ideal S850000 .f32) (s d : IVec S850000 32) (raw : FVec Ideal S50000x1 .f32) (b : FVec Ideal S1 .f32) :
    FVec Ideal S50000x1 .f32 :=
  addf (F := Ideal) (Host.scatterAdd (F := Ideal) scatter_S50000x1_S850000x1_S850000x1_1_0_0_1
      (broadcastInDim S50000x1 ![] bcast_S_S50000x1 (constant (F := Ideal) S_ .f32 0x00000000#32)) (col d)
      (mulf (F := Ideal) (fcol nrm) (Host.gather gather_S50000x1_S850000x1_S850000x1_1_0_n_n_0_1_11 raw (col (wrap s)))))
    (broadcastInDim S50000x1 ![0, 1] bcast_S1x1_S50000x1_0_1 (broadcastInDim S1x1 ![1] bcast_S1_S1x1_1 b))

end Cert.KernelIdeal.HostSpec

end
-- ==== Proof.KHost0.lean ====
/-
  The kernel program's host stretches before the first product, read as the shared host arithmetic (HostSpec.lean). Each lemma is stated for ANY
  contents `V` of the TensorCore's buffers when the stretch is entered and says what one buffer holds after it, as a closed
  function of what the stretch's input buffers held; a buffer the stretch does not write keeps its contents. At the
  extended reals rounding an array to bf16 is the identity, so a product's operand IS the f32 array it was rounded from.
-/
import proofs.«112917_j66383014527488_1_alg».proof.Proof.Gen.KernelIdeal.Launch
import proofs.«112917_j66383014527488_1_alg».proof.Proof.HostSpec
import Idealize.ShloMosaic.Lib.StableHlo.Run

set_option maxRecDepth 16384

noncomputable section

namespace Cert.KernelIdeal.HostStages

open Cert.KernelIdeal Cert.KernelIdeal.Gen Cert.KernelIdeal.HostSpec
open Idealize.ShloMosaic Idealize.ShloMosaic.TcCoe Idealize.ShloMosaic.StableHlo Idealize.SL.Sem

/-! ## The edges' endpoints -/

abbrev k0a : List (HloOp τ sig (Elt Ideal)) := (hostOps0 (F := Ideal)).take 7
/-- The buffers this stretch writes. -/
abbrev k0a_W : List (Ref sig .tc) := [main_v0, main_v1, main_v2, main_v3, main_v4, main_v5, main_v6]
set_option maxHeartbeats 1000000 in
theorem k0a_writes : (k0a).Forall fun op => op.writes ⊆ ((k0a_W).map (Proc.devRef (τ := τ) .tc)).toFinset := by
  simp only [k0a, hostOps0, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem k0a_keep (V : Valuation τ sig (Elt Ideal)) (r : Ref sig .tc) (h : r ∉ k0a_W) :
    after k0a V (Proc.devRef .tc r) = V (Proc.devRef .tc r) :=
  after_of_writes_sub k0a V k0a_writes h

set_option maxHeartbeats 1000000 in
theorem k0a_src (V : Valuation τ sig (Elt Ideal)) :
    after k0a V (Proc.devRef .tc main_v3) = src (V (Proc.devRef .tc main_arg1)) := by
  dsimp only [k0a, hostOps0, List.take, List.drop]
  after_results <;> rfl

set_option maxHeartbeats 1000000 in
theorem k0a_dst (V : Valuation τ sig (Elt Ideal)) :
    after k0a V (Proc.devRef .tc main_v6) = dst (V (Proc.devRef .tc main_arg1)) := by
  dsimp only [k0a, hostOps0, List.take, List.drop]
  after_results <;> rfl

/-! ## The nodes' degrees: where positive, and their reciprocal square roots -/

abbrev k0b : List (HloOp τ sig (Elt Ideal)) := (hostOps0 (F := Ideal)).drop 7
/-- The buffers this stretch writes. -/
abbrev k0b_W : List (Ref sig .tc) := [main_cst, main_v7, main_cst_0, main_v8, main_v9, main_v10, main_cst_1, main_v11, main_v12, main_v13, main_cst_2]
set_option maxHeartbeats 1000000 in
theorem k0b_writes : (k0b).Forall fun op => op.writes ⊆ ((k0b_W).map (Proc.devRef (τ := τ) .tc)).toFinset := by
  simp only [k0b, hostOps0, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem k0b_keep (V : Valuation τ sig (Elt Ideal)) (r : Ref sig .tc) (h : r ∉ k0b_W) :
    after k0b V (Proc.devRef .tc r) = V (Proc.devRef .tc r) :=
  after_of_writes_sub k0b V k0b_writes h

set_option maxHeartbeats 1000000 in
theorem k0b_pos (V : Valuation τ sig (Elt Ideal)) :
    after k0b V (Proc.devRef .tc main_v12) = pos (V (Proc.devRef .tc main_v6)) := by
  dsimp only [k0b, hostOps0, List.take, List.drop]
  after_results_simp
  unfold pos deg zeros col
  rfl

set_option maxHeartbeats 1000000 in
theorem k0b_rs (V : Valuation τ sig (Elt Ideal)) :
    after k0b V (Proc.devRef .tc main_v13) = rs (V (Proc.devRef .tc main_v6)) := by
  dsimp only [k0b, hostOps0, List.take, List.drop]
  after_results_simp
  unfold rs deg col
  rfl

set_option maxHeartbeats 1000000 in
theorem k0b_z (V : Valuation τ sig (Elt Ideal)) :
    after k0b V (Proc.devRef .tc main_cst_2) = constant (F := Ideal) S_ .f32 0x00000000#32 := by
  dsimp only [k0b, hostOps0, List.take, List.drop]
  after_results_simp
  try rfl

/-! ## The nodes' factors (the outlined select) -/

abbrev k0c : List (HloOp τ sig (Elt Ideal)) := hostOps0_1 (F := Ideal)
/-- The buffers this stretch writes. -/
abbrev k0c_W : List (Ref sig .tc) := [main_call0_v0, main_call0_v1, main_v14]
set_option maxHeartbeats 1000000 in
theorem k0c_writes : (k0c).Forall fun op => op.writes ⊆ ((k0c_W).map (Proc.devRef (τ := τ) .tc)).toFinset := by
  simp only [k0c, hostOps0_1, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem k0c_keep (V : Valuation τ sig (Elt Ideal)) (r : Ref sig .tc) (h : r ∉ k0c_W) :
    after k0c V (Proc.devRef .tc r) = V (Proc.devRef .tc r) :=
  after_of_writes_sub k0c V k0c_writes h

set_option maxHeartbeats 1000000 in
theorem k0c_dinv (V : Valuation τ sig (Elt Ideal)) :
    after k0c V (Proc.devRef .tc main_v14) = dinvOf (V (Proc.devRef .tc main_v12)) (V (Proc.devRef .tc main_v13)) (V (Proc.devRef .tc main_cst_2)) := by
  dsimp only [k0c, hostOps0_1, List.take, List.drop]
  after_results_simp
  unfold dinvOf
  rfl

/-! ## The edges' weights, and the first product's operands -/

abbrev k0d : List (HloOp τ sig (Elt Ideal)) := hostOps0_2 (F := Ideal)
/-- The buffers this stretch writes. -/
abbrev k0d_W : List (Ref sig .tc) := [main_c, main_v15, main_v16, main_c_3, main_v17, main_v18, main_v19, main_v20, main_v21, main_c_4, main_v22, main_v23, main_c_5, main_v24, main_v25, main_v26, main_v27, main_v28, main_v29, main_v30, main_v31]
set_option maxHeartbeats 1000000 in
theorem k0d_writes : (k0d).Forall fun op => op.writes ⊆ ((k0d_W).map (Proc.devRef (τ := τ) .tc)).toFinset := by
  simp only [k0d, hostOps0_2, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem k0d_keep (V : Valuation τ sig (Elt Ideal)) (r : Ref sig .tc) (h : r ∉ k0d_W) :
    after k0d V (Proc.devRef .tc r) = V (Proc.devRef .tc r) :=
  after_of_writes_sub k0d V k0d_writes h

set_option maxHeartbeats 1000000 in
theorem k0d_edge (V : Valuation τ sig (Elt Ideal)) :
    after k0d V (Proc.devRef .tc main_v29) = edge (V (Proc.devRef .tc main_v14)) (V (Proc.devRef .tc main_v3)) (V (Proc.devRef .tc main_v6)) := by
  dsimp only [k0d, hostOps0_2, List.take, List.drop]
  after_results_simp
  unfold edge col wrap
  rfl

set_option maxHeartbeats 1000000 in
theorem k0d_lhs (V : Valuation τ sig (Elt Ideal)) :
    after k0d V (Proc.devRef .tc main_v30) = ((V (Proc.devRef .tc main_arg0)) : FVec Ideal S50000x256 .f32) := by
  dsimp only [k0d, hostOps0_2, List.take, List.drop]
  after_results_simp
  rfl

set_option maxHeartbeats 1000000 in
theorem k0d_rhs (V : Valuation τ sig (Elt Ideal)) :
    after k0d V (Proc.devRef .tc main_v31) = ((V (Proc.devRef .tc main_arg2)) : FVec Ideal S256x256 .f32) := by
  dsimp only [k0d, hostOps0_2, List.take, List.drop]
  after_results_simp
  rfl

end Cert.KernelIdeal.HostStages

end
-- ==== Proof.KHost1.lean ====
/-
  The kernel program's host stretches between the first and the second product, read as the shared host arithmetic (HostSpec.lean). Each lemma is stated for ANY
  contents `V` of the TensorCore's buffers when the stretch is entered and says what one buffer holds after it, as a closed
  function of what the stretch's input buffers held; a buffer the stretch does not write keeps its contents. At the
  extended reals rounding an array to bf16 is the identity, so a product's operand IS the f32 array it was rounded from.
-/
import proofs.«112917_j66383014527488_1_alg».proof.Proof.Gen.KernelIdeal.Launch
import proofs.«112917_j66383014527488_1_alg».proof.Proof.HostSpec
import Idealize.ShloMosaic.Lib.StableHlo.Run

set_option maxRecDepth 16384

noncomputable section

namespace Cert.KernelIdeal.HostStages

open Cert.KernelIdeal Cert.KernelIdeal.Gen Cert.KernelIdeal.HostSpec
open Idealize.ShloMosaic Idealize.ShloMosaic.TcCoe Idealize.ShloMosaic.StableHlo Idealize.SL.Sem

/-! ## Layer 1's aggregation over the edges -/

abbrev k1a : List (HloOp τ sig (Elt Ideal)) := hostOps1 (F := Ideal)
/-- The buffers this stretch writes. -/
abbrev k1a_W : List (Ref sig .tc) := [main_v33, main_c_6, main_v34, main_v35, main_c_7, main_v36, main_v37, main_v38, main_v39, main_v40, main_v41, main_v42, main_cst_8, main_v43, main_v44, main_v45, main_v46, main_v47, main_v48]
set_option maxHeartbeats 1000000 in
theorem k1a_writes : (k1a).Forall fun op => op.writes ⊆ ((k1a_W).map (Proc.devRef (τ := τ) .tc)).toFinset := by
  simp only [k1a, hostOps1, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem k1a_keep (V : Valuation τ sig (Elt Ideal)) (r : Ref sig .tc) (h : r ∉ k1a_W) :
    after k1a V (Proc.devRef .tc r) = V (Proc.devRef .tc r) :=
  after_of_writes_sub k1a V k1a_writes h

set_option maxHeartbeats 1000000 in
theorem k1a_layer (V : Valuation τ sig (Elt Ideal)) :
    after k1a V (Proc.devRef .tc main_v48) = layer (V (Proc.devRef .tc main_v29)) (V (Proc.devRef .tc main_v3)) (V (Proc.devRef .tc main_v6)) (V (Proc.devRef .tc main_v32)) (V (Proc.devRef .tc main_arg3)) := by
  dsimp only [k1a, hostOps1, List.take, List.drop]
  after_results_simp
  unfold layer col fcol wrap
  rfl

/-! ## The rectifier after layer 1 -/

abbrev k1b : List (HloOp τ sig (Elt Ideal)) := hostOps1_1 (F := Ideal)
/-- The buffers this stretch writes. -/
abbrev k1b_W : List (Ref sig .tc) := [main_call1_cst, main_call1_v0, main_v49]
set_option maxHeartbeats 1000000 in
theorem k1b_writes : (k1b).Forall fun op => op.writes ⊆ ((k1b_W).map (Proc.devRef (τ := τ) .tc)).toFinset := by
  simp only [k1b, hostOps1_1, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem k1b_keep (V : Valuation τ sig (Elt Ideal)) (r : Ref sig .tc) (h : r ∉ k1b_W) :
    after k1b V (Proc.devRef .tc r) = V (Proc.devRef .tc r) :=
  after_of_writes_sub k1b V k1b_writes h

set_option maxHeartbeats 1000000 in
theorem k1b_relu (V : Valuation τ sig (Elt Ideal)) :
    after k1b V (Proc.devRef .tc main_v49) = relu (V (Proc.devRef .tc main_v48)) := by
  dsimp only [k1b, hostOps1_1, List.take, List.drop]
  after_results_simp
  unfold relu
  rfl

/-! ## The next product's operands, rounded to bf16: the arrays themselves -/

abbrev k1c : List (HloOp τ sig (Elt Ideal)) := hostOps1_2 (F := Ideal)
/-- The buffers this stretch writes. -/
abbrev k1c_W : List (Ref sig .tc) := [main_v50, main_v51]
set_option maxHeartbeats 1000000 in
theorem k1c_writes : (k1c).Forall fun op => op.writes ⊆ ((k1c_W).map (Proc.devRef (τ := τ) .tc)).toFinset := by
  simp only [k1c, hostOps1_2, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem k1c_keep (V : Valuation τ sig (Elt Ideal)) (r : Ref sig .tc) (h : r ∉ k1c_W) :
    after k1c V (Proc.devRef .tc r) = V (Proc.devRef .tc r) :=
  after_of_writes_sub k1c V k1c_writes h

set_option maxHeartbeats 1000000 in
theorem k1c_lhs (V : Valuation τ sig (Elt Ideal)) :
    after k1c V (Proc.devRef .tc main_v50) = ((V (Proc.devRef .tc main_v49)) : FVec Ideal S50000x256 .f32) := by
  dsimp only [k1c, hostOps1_2, List.take, List.drop]
  after_results_simp
  rfl

set_option maxHeartbeats 1000000 in
theorem k1c_rhs (V : Valuation τ sig (Elt Ideal)) :
    after k1c V (Proc.devRef .tc main_v51) = ((V (Proc.devRef .tc main_arg4)) : FVec Ideal S256x256 .f32) := by
  dsimp only [k1c, hostOps1_2, List.take, List.drop]
  after_results_simp
  rfl

end Cert.KernelIdeal.HostStages

end
-- ==== Proof.KHost2.lean ====
/-
  The kernel program's host stretches between the second and the third product, read as the shared host arithmetic (HostSpec.lean). Each lemma is stated for ANY
  contents `V` of the TensorCore's buffers when the stretch is entered and says what one buffer holds after it, as a closed
  function of what the stretch's input buffers held; a buffer the stretch does not write keeps its contents. At the
  extended reals rounding an array to bf16 is the identity, so a product's operand IS the f32 array it was rounded from.
-/
import proofs.«112917_j66383014527488_1_alg».proof.Proof.Gen.KernelIdeal.Launch
import proofs.«112917_j66383014527488_1_alg».proof.Proof.HostSpec
import Idealize.ShloMosaic.Lib.StableHlo.Run

set_option maxRecDepth 16384

noncomputable section

namespace Cert.KernelIdeal.HostStages

open Cert.KernelIdeal Cert.KernelIdeal.Gen Cert.KernelIdeal.HostSpec
open Idealize.ShloMosaic Idealize.ShloMosaic.TcCoe Idealize.ShloMosaic.StableHlo Idealize.SL.Sem

/-! ## Layer 2's aggregation over the edges -/

abbrev k2a : List (HloOp τ sig (Elt Ideal)) := hostOps2 (F := Ideal)
/-- The buffers this stretch writes. -/
abbrev k2a_W : List (Ref sig .tc) := [main_v53, main_c_9, main_v54, main_v55, main_c_10, main_v56, main_v57, main_v58, main_v59, main_v60, main_v61, main_v62, main_cst_11, main_v63, main_v64, main_v65, main_v66, main_v67, main_v68]
set_option maxHeartbeats 1000000 in
theorem k2a_writes : (k2a).Forall fun op => op.writes ⊆ ((k2a_W).map (Proc.devRef (τ := τ) .tc)).toFinset := by
  simp only [k2a, hostOps2, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem k2a_keep (V : Valuation τ sig (Elt Ideal)) (r : Ref sig .tc) (h : r ∉ k2a_W) :
    after k2a V (Proc.devRef .tc r) = V (Proc.devRef .tc r) :=
  after_of_writes_sub k2a V k2a_writes h

set_option maxHeartbeats 1000000 in
theorem k2a_layer (V : Valuation τ sig (Elt Ideal)) :
    after k2a V (Proc.devRef .tc main_v68) = layer (V (Proc.devRef .tc main_v29)) (V (Proc.devRef .tc main_v3)) (V (Proc.devRef .tc main_v6)) (V (Proc.devRef .tc main_v52)) (V (Proc.devRef .tc main_arg5)) := by
  dsimp only [k2a, hostOps2, List.take, List.drop]
  after_results_simp
  unfold layer col fcol wrap
  rfl

/-! ## The rectifier after layer 2 -/

abbrev k2b : List (HloOp τ sig (Elt Ideal)) := hostOps2_1 (F := Ideal)
/-- The buffers this stretch writes. -/
abbrev k2b_W : List (Ref sig .tc) := [main_call2_cst, main_call2_v0, main_v69]
set_option maxHeartbeats 1000000 in
theorem k2b_writes : (k2b).Forall fun op => op.writes ⊆ ((k2b_W).map (Proc.devRef (τ := τ) .tc)).toFinset := by
  simp only [k2b, hostOps2_1, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem k2b_keep (V : Valuation τ sig (Elt Ideal)) (r : Ref sig .tc) (h : r ∉ k2b_W) :
    after k2b V (Proc.devRef .tc r) = V (Proc.devRef .tc r) :=
  after_of_writes_sub k2b V k2b_writes h

set_option maxHeartbeats 1000000 in
theorem k2b_relu (V : Valuation τ sig (Elt Ideal)) :
    after k2b V (Proc.devRef .tc main_v69) = relu (V (Proc.devRef .tc main_v68)) := by
  dsimp only [k2b, hostOps2_1, List.take, List.drop]
  after_results_simp
  unfold relu
  rfl

/-! ## The next product's operands, rounded to bf16: the arrays themselves -/

abbrev k2c : List (HloOp τ sig (Elt Ideal)) := hostOps2_2 (F := Ideal)
/-- The buffers this stretch writes. -/
abbrev k2c_W : List (Ref sig .tc) := [main_v70, main_v71]
set_option maxHeartbeats 1000000 in
theorem k2c_writes : (k2c).Forall fun op => op.writes ⊆ ((k2c_W).map (Proc.devRef (τ := τ) .tc)).toFinset := by
  simp only [k2c, hostOps2_2, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem k2c_keep (V : Valuation τ sig (Elt Ideal)) (r : Ref sig .tc) (h : r ∉ k2c_W) :
    after k2c V (Proc.devRef .tc r) = V (Proc.devRef .tc r) :=
  after_of_writes_sub k2c V k2c_writes h

set_option maxHeartbeats 1000000 in
theorem k2c_lhs (V : Valuation τ sig (Elt Ideal)) :
    after k2c V (Proc.devRef .tc main_v70) = ((V (Proc.devRef .tc main_v69)) : FVec Ideal S50000x256 .f32) := by
  dsimp only [k2c, hostOps2_2, List.take, List.drop]
  after_results_simp
  rfl

set_option maxHeartbeats 1000000 in
theorem k2c_rhs (V : Valuation τ sig (Elt Ideal)) :
    after k2c V (Proc.devRef .tc main_v71) = ((V (Proc.devRef .tc main_arg6)) : FVec Ideal S256x1 .f32) := by
  dsimp only [k2c, hostOps2_2, List.take, List.drop]
  after_results_simp
  rfl

end Cert.KernelIdeal.HostStages

end
-- ==== Proof.KHost3.lean ====
/-
  The kernel program's host stretches after the third product, read as the shared host arithmetic (HostSpec.lean). Each lemma is stated for ANY
  contents `V` of the TensorCore's buffers when the stretch is entered and says what one buffer holds after it, as a closed
  function of what the stretch's input buffers held; a buffer the stretch does not write keeps its contents. At the
  extended reals rounding an array to bf16 is the identity, so a product's operand IS the f32 array it was rounded from.
-/
import proofs.«112917_j66383014527488_1_alg».proof.Proof.Gen.KernelIdeal.Launch
import proofs.«112917_j66383014527488_1_alg».proof.Proof.HostSpec
import Idealize.ShloMosaic.Lib.StableHlo.Run

set_option maxRecDepth 16384

noncomputable section

namespace Cert.KernelIdeal.HostStages

open Cert.KernelIdeal Cert.KernelIdeal.Gen Cert.KernelIdeal.HostSpec
open Idealize.ShloMosaic Idealize.ShloMosaic.TcCoe Idealize.ShloMosaic.StableHlo Idealize.SL.Sem

/-! ## The last layer's aggregation: the program's result -/

abbrev k3 : List (HloOp τ sig (Elt Ideal)) := hostOps3 (F := Ideal)
/-- The buffers this stretch writes. -/
abbrev k3_W : List (Ref sig .tc) := [main_v73, main_c_12, main_v74, main_v75, main_c_13, main_v76, main_v77, main_v78, main_v79, main_v80, main_v81, main_cst_14, main_v82, main_v83, main_v84, main_v85, main_v86, main_v87]
set_option maxHeartbeats 1000000 in
theorem k3_writes : (k3).Forall fun op => op.writes ⊆ ((k3_W).map (Proc.devRef (τ := τ) .tc)).toFinset := by
  simp only [k3, hostOps3, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem k3_keep (V : Valuation τ sig (Elt Ideal)) (r : Ref sig .tc) (h : r ∉ k3_W) :
    after k3 V (Proc.devRef .tc r) = V (Proc.devRef .tc r) :=
  after_of_writes_sub k3 V k3_writes h

set_option maxHeartbeats 1000000 in
theorem k3_out (V : Valuation τ sig (Elt Ideal)) :
    after k3 V (Proc.devRef .tc main_v87) = out (V (Proc.devRef .tc main_v29)) (V (Proc.devRef .tc main_v3)) (V (Proc.devRef .tc main_v6)) (V (Proc.devRef .tc main_v72)) (V (Proc.devRef .tc main_arg7)) := by
  dsimp only [k3, hostOps3, List.take, List.drop]
  after_results_simp
  unfold out col fcol wrap
  rfl

end Cert.KernelIdeal.HostStages

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.ProductSpec.lean ====
/-
  The product of an `M × K` array by a `K × N` array over the extended reals: entry `(r, j)` is the finite sum
  `Σ_{k < K} a (r, k) · b (k, j)`. Addition of extended reals is commutative and associative, so the sum needs no order
  and no finiteness of the entries.
-/
import Idealize.ShloMosaic.PureOps.Ideal
import Idealize.ShloMosaic.Lib.ValueIdx

noncomputable section

namespace Cert.Spec

open Idealize.ShloMosaic Idealize.ShloMosaic.ValueIdx

/-- Entry `i = (r, j)` of the product of `a` by `b`. -/
def prod {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 ⟨(i 0).val, idx2_lt0 i⟩ k) * b (ix2 k ⟨(i 1).val, idx2_lt1 i⟩)

/-- The product at an entry given by its coordinates. -/
theorem prod_ix2 {M K N : Nat} (a : (⟨2, ![M, K]⟩ : Shape).Idx → EReal) (b : (⟨2, ![K, N]⟩ : Shape).Idx → EReal)
    (r : Fin M) (j : Fin N) : prod a b (ix2 r j) = ∑ k : Fin K, a (ix2 r k) * b (ix2 k j) := rfl

end Cert.Spec

end
-- ==== Proof.Region0.lean ====
/-
  The array region 0 leaves: the whole product of its two operands as the region finds them.
  The region walks 25 grid points; at point `t` it stages rows `2000·t … 2000·t + 1999` of the left operand and the whole
  right operand, multiplies them into a zero accumulator, and writes the 2000 × 256 block back to the same rows of the
  output. Entry `(p, q)` of that block is `Σ_k left (2000·t + p, k) · right (k, q)`, which is entry `(2000·t + p, q)` of the
  whole product; the 25 row blocks tile the output's 50000 rows, so the output array ends holding the whole product.
-/
import proofs.«112917_j66383014527488_1_alg».proof.Proof.Gen.KernelIdeal.Frame
import proofs.«112917_j66383014527488_1_alg».proof.Proof.LibPlainDot
import proofs.«112917_j66383014527488_1_alg».proof.Proof.ProductSpec
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's one stored value at entry `(p, q)` of the block: row `p` of the staged rows against column `q` of the
    staged right operand (the casts are to the same shapes; the accumulator is zero). -/
theorem payload_apply (x0 : Vec Ideal S2000x256 .bf16) (x1 : Vec Ideal S256x256 .bf16) (p : Fin 2000) (q : Fin 256) :
    k0_pay1 (F := Ideal) x0 x1 (ix2 p q) = ∑ k : Fin 256, x0 (ix2 p k) * x1 (ix2 k q) := by
  unfold k0_pay1
  rw [shapeCast_self, shapeCast_self]
  exact PlainDot.matmul_apply_ix2 (M := 2000) (K := 256) (N := 256) none x0 x1 p q

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the left operand's row block moves with the output's, every other
    block index is zero, and the output's row block stays below 25. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row block of the output is some point's. -/
theorem index_onto : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the whole product of the operands as the region finds them. -/
theorem flushed_eq (c : Dev nD) (t : Fin cfg0.N) :
    (dat0 V c).flushed 2 t = ((cfg0.win 2).blk t).view.read (Elt Ideal)
      (Spec.prod (M := 50000) (K := 256) (N := 256) (V c main_v30) (V c main_v31)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x256) zero_offsets]
  obtain ⟨e0, e1, e2, e3, e4, e5⟩ := index_facts t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (ix2 p q)
    = Spec.prod (M := 50000) (K := 256) (N := 256) (V c main_v30) (V c main_v31) (((cfg0.win 2).blk t).view.emb (ix2 p q))
  refine (payload_apply (iblk0 V c 0 t) (iblk0 V c 1 t) p q).trans ?_
  refine Finset.sum_congr rfl fun k _ => ?_
  have h0 : iblk0 V c 0 t (ix2 p k)
      = V c main_v30 (ix2 ⟨((((cfg0.win 2).blk t).view.emb (ix2 p q)) 0).val, idx2_lt0 _⟩ k) := by
    show V c main_v30 (((cfg0.win 0).blk t).view.emb (ix2 p k)) = _
    refine congrArg (V c main_v30) ?_
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : iblk0 V c 1 t (ix2 k q)
      = V c main_v31 (ix2 k ⟨((((cfg0.win 2).blk t).view.emb (ix2 p q)) 1).val, idx2_lt1 _⟩) := by
    show V c main_v31 (((cfg0.win 1).blk t).view.emb (ix2 k q)) = _
    refine congrArg (V c main_v31) ?_
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  rw [h0, h1]

/-- An index of the output is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- The 25 row blocks tile the output: row `r` is in the block of the point whose row block is `r / 2000`. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The output array after the region: the whole product of the two operands as the region finds them. -/
theorem array_eq (c : Dev nD) :
    (dat0 V c).arrAt 2 cfg0.N = Spec.prod (M := 50000) (K := 256) (N := 256) (V c main_v30) (V c main_v31) :=
  (dat0 V c).arrAt_eq_of_cover 2 _ (fun t _ => flushed_eq V c t) cover

end Cert.KernelIdeal.Region0

end
-- ==== Proof.Region1.lean ====
/-
  The array region 1 leaves: the whole product of its two operands as the region finds them.
  The region walks 25 grid points; at point `t` it stages rows `2000·t … 2000·t + 1999` of the left operand and the whole
  right operand, multiplies them into a zero accumulator, and writes the 2000 × 256 block back to the same rows of the
  output. Entry `(p, q)` of that block is `Σ_k left (2000·t + p, k) · right (k, q)`, which is entry `(2000·t + p, q)` of the
  whole product; the 25 row blocks tile the output's 50000 rows, so the output array ends holding the whole product.
-/
import proofs.«112917_j66383014527488_1_alg».proof.Proof.Gen.KernelIdeal.Frame
import proofs.«112917_j66383014527488_1_alg».proof.Proof.LibPlainDot
import proofs.«112917_j66383014527488_1_alg».proof.Proof.ProductSpec
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's one stored value at entry `(p, q)` of the block: row `p` of the staged rows against column `q` of the
    staged right operand (the casts are to the same shapes; the accumulator is zero). -/
theorem payload_apply (x0 : Vec Ideal S2000x256 .bf16) (x1 : Vec Ideal S256x256 .bf16) (p : Fin 2000) (q : Fin 256) :
    k1_pay1 (F := Ideal) x0 x1 (ix2 p q) = ∑ k : Fin 256, x0 (ix2 p k) * x1 (ix2 k q) := by
  unfold k1_pay1
  rw [shapeCast_self, shapeCast_self]
  exact PlainDot.matmul_apply_ix2 (M := 2000) (K := 256) (N := 256) none x0 x1 p q

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the left operand's row block moves with the output's, every other
    block index is zero, and the output's row block stays below 25. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every row block of the output is some point's. -/
theorem index_onto : ∀ q0 : Fin 25, ∃ t : Fin cfg1.N, win1_2.index t = ![q0.val, 0] :=
  (by decide +kernel : ∀ q0 : Fin 25, ∃ t : Fin grid1.N, win1_2.index t = ![q0.val, 0])

/-- What point `t` writes back is block `t` of the whole product of the operands as the region finds them. -/
theorem flushed_eq (c : Dev nD) (t : Fin cfg1.N) :
    (dat1 V c).flushed 2 t = ((cfg1.win 2).blk t).view.read (Elt Ideal)
      (Spec.prod (M := 50000) (K := 256) (N := 256) (V c main_v50) (V c main_v51)) := by
  show (cfg1.win 2).cut (grid1.coords t) ((dat1 V c).after 2 t) = _
  rw [after1_2]
  unfold out1_2
  rw [View.canon_unit_zero zero_offsets]
  simp only [View.ld_unit_zero (S := S2000x256) zero_offsets, View.ld_unit_zero (S := S256x256) zero_offsets]
  obtain ⟨e0, e1, e2, e3, e4, e5⟩ := index_facts t
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (ix2 p q)
    = Spec.prod (M := 50000) (K := 256) (N := 256) (V c main_v50) (V c main_v51) (((cfg1.win 2).blk t).view.emb (ix2 p q))
  refine (payload_apply (iblk1 V c 0 t) (iblk1 V c 1 t) p q).trans ?_
  refine Finset.sum_congr rfl fun k _ => ?_
  have h0 : iblk1 V c 0 t (ix2 p k)
      = V c main_v50 (ix2 ⟨((((cfg1.win 2).blk t).view.emb (ix2 p q)) 0).val, idx2_lt0 _⟩ k) := by
    show V c main_v50 (((cfg1.win 0).blk t).view.emb (ix2 p k)) = _
    refine congrArg (V c main_v50) ?_
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * k.val = k.val; omega
  have h1 : iblk1 V c 1 t (ix2 k q)
      = V c main_v51 (ix2 k ⟨((((cfg1.win 2).blk t).view.emb (ix2 p q)) 1).val, idx2_lt1 _⟩) := by
    show V c main_v51 (((cfg1.win 1).blk t).view.emb (ix2 k q)) = _
    refine congrArg (V c main_v51) ?_
    funext a; apply Fin.ext
    match a with
    | ⟨0, _⟩ => show win1_1.index t (0 : Fin 2) * 256 + 1 * k.val = k.val; omega
    | ⟨1, _⟩ => show win1_1.index t (1 : Fin 2) * 256 + 1 * q.val = win1_2.index t (1 : Fin 2) * 256 + 1 * q.val; omega
  rw [h0, h1]

/-- An index of the output is in point `t`'s block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v52).slice (win1_2.rect t)).set ↔ _
  rw [View.set_slice_whole, Rect.mem_set_unit]
  exact Iff.rfl

/-- The 25 row blocks tile the output: row `r` is in the block of the point whose row block is `r / 2000`. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := index_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- The output array after the region: the whole product of the two operands as the region finds them. -/
theorem array_eq (c : Dev nD) :
    (dat1 V c).arrAt 2 cfg1.N = Spec.prod (M := 50000) (K := 256) (N := 256) (V c main_v50) (V c main_v51) :=
  (dat1 V c).arrAt_eq_of_cover 2 _ (fun t _ => flushed_eq V c t) cover

end Cert.KernelIdeal.Region1

end
-- ==== Proof.Region2.lean ====
/-
  The array region 2 leaves: the whole product of its two operands as the region finds them.
  The region walks 25 grid points; at point `t` it stages rows `2000·t … 2000·t + 1999` of the left operand and the whole
  right operand, multiplies them into a zero accumulator, and writes the 2000 × 1 block back to the same rows of the
  output. Entry `(p, q)` of that block is `Σ_k left (2000·t + p, k) · right (k, q)`, which is entry `(2000·t + p, q)` of the
  whole product; the 25 row blocks tile the output's 50000 rows, so the output array ends holding the whole product.
-/
import proofs.«112917_j66383014527488_1_alg».proof.Proof.Gen.KernelIdeal.Frame
import proofs.«112917_j66383014527488_1_alg».proof.Proof.LibPlainDot
import proofs.«112917_j66383014527488_1_alg».proof.Proof.ProductSpec
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's one stored value at entry `(p, q)` of the block: row `p` of the staged rows against column `q` of the
    staged right operand (the casts are to the same shapes; the accumulator is zero). -/
theorem payload_apply (x0 : Vec Ideal S2000x256 .bf16) (x1 : Vec Ideal S256x1 .bf16) (p : Fin 2000) (q : Fin 1) :
    k2_pay1 (F := Ideal) x0 x1 (ix2 p q) = ∑ k : Fin 256, x0 (ix2 p k) * x1 (ix2 k q) := by
  unfold k2_pay1
  rw [shapeCast_self, shapeCast_self]
  exact PlainDot.matmul_apply_ix2 (M := 2000) (K := 256) (N := 1) none x0 x1 p q

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the left operand's row block moves with the output's, every other
    block index is zero, and the output's row block stays below 25. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 24 :=
  (by decide +kernel : ∀ t : Fin grid2.N, _)

/-- Every row block of the output is some point's. -/
theorem index_onto : ∀ q0 : Fin 25, ∃ t : Fin cfg2.N, win2_2.index t = ![q0.val, 0] :=
  (by decide +kernel : ∀ q0 : Fin 25, ∃ t : Fin grid2.N, win2_2.index t = ![q0.val, 0])

/-- What point `t` writes back is block `t` of the whole product of the operands as the region finds them. -/
theorem flushed_eq (c : Dev nD) (t : Fin cfg2.N) :
    (dat2 V c).flushed 2 t = ((cfg2.win 2).blk t).view.read (Elt Ideal)
      (Spec.prod (M := 50000) (K := 256) (N := 1) (V c main_v70) (V c main_v71)) := by
  show (cfg2.win 2).cut (grid2.coords t) ((dat2 V c).after 2 t) = _
  rw [after2_2]
  unfold out2_2
  rw [View.canon_unit_zero zero_offsets]
  simp only [View.ld_unit_zero (S := S2000x256) zero_offsets, View.ld_unit_zero (S := S256x1) zero_offsets]
  obtain ⟨e0, e1, e2, e3, e4, e5⟩ := index_facts t
  funext j
  obtain ⟨p, q, rfl⟩ : ∃ (p : Fin 2000) (q : Fin 1), j = ix2 p q := ⟨j 0, j 1, eq_ix2 j⟩
  show k2_pay1 (F := Ideal) (iblk2 V c 0 t) (iblk2 V c 1 t) (ix2 p q)
    = Spec.prod (M := 50000) (K := 256) (N := 1) (V c main_v70) (V c main_v71) (((cfg2.win 2).blk t).view.emb (ix2 p q))
  refine (payload_apply (iblk2 V c 0 t) (iblk2 V c 1 t) p q).trans ?_
  refine Finset.sum_congr rfl fun k _ => ?_
  have h0 : iblk2 V c 0 t (ix2 p k)
      = V c main_v70 (ix2 ⟨((((cfg2.win 2).blk t).view.emb (ix2 p q)) 0).val, idx2_lt0 _⟩ k) := by
    show V c main_v70 (((cfg2.win 0).blk t).view.emb (ix2 p k)) = _
    refine congrArg (V c main_v70) ?_
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 256 + 1 * k.val = k.val; omega
  have h1 : iblk2 V c 1 t (ix2 k q)
      = V c main_v71 (ix2 k ⟨((((cfg2.win 2).blk t).view.emb (ix2 p q)) 1).val, idx2_lt1 _⟩) := by
    show V c main_v71 (((cfg2.win 1).blk t).view.emb (ix2 k q)) = _
    refine congrArg (V c main_v71) ?_
    funext a; apply Fin.ext
    match a with
    | ⟨0, _⟩ => show win2_1.index t (0 : Fin 2) * 256 + 1 * k.val = k.val; omega
    | ⟨1, _⟩ => show win2_1.index t (1 : Fin 2) * 1 + 1 * q.val = win2_2.index t (1 : Fin 2) * 1 + 1 * q.val; omega
  rw [h0, h1]

/-- An index of the output is in point `t`'s block iff each coordinate is in the block's range on its axis. -/
theorem mem_blk (t : Fin cfg2.N) (i : S50000x1.Idx) :
    i ∈ ((cfg2.win 2).blk t).view.set ↔ ∀ a : Fin 2, win2_2.index t a * S2000x1.size a ≤ (i a).val ∧ (i a).val < win2_2.index t a * S2000x1.size a + S2000x1.size a := by
  show i ∈ ((View.whole main_v72).slice (win2_2.rect t)).set ↔ _
  rw [View.set_slice_whole, Rect.mem_set_unit]
  exact Iff.rfl

/-- The 25 row blocks tile the output: row `r` is in the block of the point whose row block is `r / 2000`. -/
theorem cover (i : S50000x1.Idx) : ∃ t : Fin cfg2.N, (cfg2.win 2).flush t = true ∧ i ∈ ((cfg2.win 2).blk t).view.set := by
  have hi0 : (i 0).val < 50000 := (i 0).isLt
  have hi1 : (i 1).val < 1 := (i 1).isLt
  obtain ⟨t, ht⟩ := index_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 1 ≤ (i 1).val ∧ (i 1).val < win2_2.index t (1 : Fin 2) * 1 + 1; omega

/-- The output array after the region: the whole product of the two operands as the region finds them. -/
theorem array_eq (c : Dev nD) :
    (dat2 V c).arrAt 2 cfg2.N = Spec.prod (M := 50000) (K := 256) (N := 1) (V c main_v70) (V c main_v71) :=
  (dat2 V c).arrAt_eq_of_cover 2 _ (fun t _ => flushed_eq V c t) cover

end Cert.KernelIdeal.Region2

end
-- ==== Proof.GcnSpec.lean ====
/-
  What both programs compute, as ONE function of the eight arguments over the extended reals: three graph convolution
  layers, each a dense product `h · W` followed by the aggregation over the edges and the bias; a rectifier after the
  first two. The edges' endpoints and weights depend on the edge list only and are shared by the three layers.
-/
import proofs.«112917_j66383014527488_1_alg».proof.Proof.HostSpec
import proofs.«112917_j66383014527488_1_alg».proof.Proof.ProductSpec

noncomputable section

namespace Cert.KernelIdeal.HostSpec

open Cert.KernelIdeal Cert.KernelIdeal.Gen Idealize.ShloMosaic

/-- The network's output: node features `x`, edge list `e`, and per layer a weight matrix and a bias. -/
def gcn (x : FVec Ideal S50000x256 .f32) (e : IVec S2x800000 32) (w0 : FVec Ideal S256x256 .f32) (b0 : FVec Ideal S256 .f32)
    (w1 : FVec Ideal S256x256 .f32) (b1 : FVec Ideal S256 .f32) (w2 : FVec Ideal S256x1 .f32) (b2 : FVec Ideal S1 .f32) :
    FVec Ideal S50000x1 .f32 :=
  out (norm (src e) (dst e)) (src e) (dst e)
    (Spec.prod (M := 50000) (K := 256) (N := 1)
      (relu (layer (norm (src e) (dst e)) (src e) (dst e)
        (Spec.prod (M := 50000) (K := 256) (N := 256)
          (relu (layer (norm (src e) (dst e)) (src e) (dst e) (Spec.prod (M := 50000) (K := 256) (N := 256) x w0) b0)) w1) b1)) w2) b2

end Cert.KernelIdeal.HostSpec

end
-- ==== Proof.KChain.lean ====
/-
  The idealized kernel's result as the one function `gcn` of its eight arguments.
  The frame run leaves the result buffer at the last valuation of a fold through the program: host stretches and the
  three regions in turn. Level by level, the buffers the rest of the program still reads are followed through that fold:
  the arguments (never written), the edges' endpoints and weights (written once, before the first product), and each
  layer's arrays. A host stretch's result is read by its lemma in KHost*.lean; a region's output array is the whole product
  of its two operands (Region*.lean), every other buffer as the region found it.
-/
import proofs.«112917_j66383014527488_1_alg».proof.Proof.Gen.KernelIdeal.Frame
import proofs.«112917_j66383014527488_1_alg».proof.Proof.KHost0
import proofs.«112917_j66383014527488_1_alg».proof.Proof.KHost1
import proofs.«112917_j66383014527488_1_alg».proof.Proof.KHost2
import proofs.«112917_j66383014527488_1_alg».proof.Proof.KHost3
import proofs.«112917_j66383014527488_1_alg».proof.Proof.Region0
import proofs.«112917_j66383014527488_1_alg».proof.Proof.Region1
import proofs.«112917_j66383014527488_1_alg».proof.Proof.Region2
import proofs.«112917_j66383014527488_1_alg».proof.Proof.GcnSpec
import Idealize.ShloMosaic.Lib.Pipeline.Frame

set_option maxRecDepth 16384

noncomputable section

namespace Cert.KernelIdeal.Chain

open Cert.KernelIdeal Cert.KernelIdeal.Gen Cert.KernelIdeal.HostSpec Cert.KernelIdeal.HostStages
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- Argument 0 as launched. -/
abbrev a0 : FVec Ideal S50000x256 .f32 := m ((c : Thread nD τ).loc main_arg0)
/-- Argument 1 as launched. -/
abbrev a1 : IVec S2x800000 32 := m ((c : Thread nD τ).loc main_arg1)
/-- Argument 2 as launched. -/
abbrev a2 : FVec Ideal S256x256 .f32 := m ((c : Thread nD τ).loc main_arg2)
/-- Argument 3 as launched. -/
abbrev a3 : FVec Ideal S256 .f32 := m ((c : Thread nD τ).loc main_arg3)
/-- Argument 4 as launched. -/
abbrev a4 : FVec Ideal S256x256 .f32 := m ((c : Thread nD τ).loc main_arg4)
/-- Argument 5 as launched. -/
abbrev a5 : FVec Ideal S256 .f32 := m ((c : Thread nD τ).loc main_arg5)
/-- Argument 6 as launched. -/
abbrev a6 : FVec Ideal S256x1 .f32 := m ((c : Thread nD τ).loc main_arg6)
/-- Argument 7 as launched. -/
abbrev a7 : FVec Ideal S1 .f32 := m ((c : Thread nD τ).loc main_arg7)

/-- The buffers after the first seven host operations (the edges' endpoints). -/
abbrev A1 : Valuation τ sig (Elt Ideal) := after k0a (W0 m ρ c)

/-- The first host stretch is its first seven operations followed by the rest. -/
theorem W1_eq : W1 m ρ c = after k0b (A1 m ρ c) := by
  show after (hostOps0 (F := Ideal)) (W0 m ρ c) = after k0b (after k0a (W0 m ρ c))
  rw [← after_append]
  exact congrArg (fun l => after l (W0 m ρ c)) (List.take_append_drop 7 (hostOps0 (F := Ideal))).symm

/-! ### At launch -/

theorem L0_arg0 : W0 m ρ c (Proc.devRef .tc main_arg0) = (a0 m c) := rfl
theorem L0_arg1 : W0 m ρ c (Proc.devRef .tc main_arg1) = (a1 m c) := rfl
theorem L0_arg2 : W0 m ρ c (Proc.devRef .tc main_arg2) = (a2 m c) := rfl
theorem L0_arg3 : W0 m ρ c (Proc.devRef .tc main_arg3) = (a3 m c) := rfl
theorem L0_arg4 : W0 m ρ c (Proc.devRef .tc main_arg4) = (a4 m c) := rfl
theorem L0_arg5 : W0 m ρ c (Proc.devRef .tc main_arg5) = (a5 m c) := rfl
theorem L0_arg6 : W0 m ρ c (Proc.devRef .tc main_arg6) = (a6 m c) := rfl
theorem L0_arg7 : W0 m ρ c (Proc.devRef .tc main_arg7) = (a7 m c) := rfl

/-! ### After the edges' endpoints -/

theorem L1a_arg0 : A1 m ρ c (Proc.devRef .tc main_arg0) = (a0 m c) := by
  exact (k0a_keep (W0 m ρ c) main_arg0 (by decide)).trans (L0_arg0 m ρ c)
theorem L1a_arg1 : A1 m ρ c (Proc.devRef .tc main_arg1) = (a1 m c) := by
  exact (k0a_keep (W0 m ρ c) main_arg1 (by decide)).trans (L0_arg1 m ρ c)
theorem L1a_arg2 : A1 m ρ c (Proc.devRef .tc main_arg2) = (a2 m c) := by
  exact (k0a_keep (W0 m ρ c) main_arg2 (by decide)).trans (L0_arg2 m ρ c)
theorem L1a_arg3 : A1 m ρ c (Proc.devRef .tc main_arg3) = (a3 m c) := by
  exact (k0a_keep (W0 m ρ c) main_arg3 (by decide)).trans (L0_arg3 m ρ c)
theorem L1a_arg4 : A1 m ρ c (Proc.devRef .tc main_arg4) = (a4 m c) := by
  exact (k0a_keep (W0 m ρ c) main_arg4 (by decide)).trans (L0_arg4 m ρ c)
theorem L1a_arg5 : A1 m ρ c (Proc.devRef .tc main_arg5) = (a5 m c) := by
  exact (k0a_keep (W0 m ρ c) main_arg5 (by decide)).trans (L0_arg5 m ρ c)
theorem L1a_arg6 : A1 m ρ c (Proc.devRef .tc main_arg6) = (a6 m c) := by
  exact (k0a_keep (W0 m ρ c) main_arg6 (by decide)).trans (L0_arg6 m ρ c)
theorem L1a_arg7 : A1 m ρ c (Proc.devRef .tc main_arg7) = (a7 m c) := by
  exact (k0a_keep (W0 m ρ c) main_arg7 (by decide)).trans (L0_arg7 m ρ c)
theorem L1a_v3 : A1 m ρ c (Proc.devRef .tc main_v3) = (src (a1 m c)) := by
  show after k0a (W0 m ρ c) (Proc.devRef .tc main_v3) = _
  rw [k0a_src, L0_arg1 m ρ c]
theorem L1a_v6 : A1 m ρ c (Proc.devRef .tc main_v6) = (dst (a1 m c)) := by
  show after k0a (W0 m ρ c) (Proc.devRef .tc main_v6) = _
  rw [k0a_dst, L0_arg1 m ρ c]

/-! ### After the degrees -/

theorem L1_arg0 : W1 m ρ c (Proc.devRef .tc main_arg0) = (a0 m c) := by
  rw [W1_eq m ρ c]
  exact (k0b_keep (A1 m ρ c) main_arg0 (by decide)).trans (L1a_arg0 m ρ c)
theorem L1_arg1 : W1 m ρ c (Proc.devRef .tc main_arg1) = (a1 m c) := by
  rw [W1_eq m ρ c]
  exact (k0b_keep (A1 m ρ c) main_arg1 (by decide)).trans (L1a_arg1 m ρ c)
theorem L1_arg2 : W1 m ρ c (Proc.devRef .tc main_arg2) = (a2 m c) := by
  rw [W1_eq m ρ c]
  exact (k0b_keep (A1 m ρ c) main_arg2 (by decide)).trans (L1a_arg2 m ρ c)
theorem L1_arg3 : W1 m ρ c (Proc.devRef .tc main_arg3) = (a3 m c) := by
  rw [W1_eq m ρ c]
  exact (k0b_keep (A1 m ρ c) main_arg3 (by decide)).trans (L1a_arg3 m ρ c)
theorem L1_arg4 : W1 m ρ c (Proc.devRef .tc main_arg4) = (a4 m c) := by
  rw [W1_eq m ρ c]
  exact (k0b_keep (A1 m ρ c) main_arg4 (by decide)).trans (L1a_arg4 m ρ c)
theorem L1_arg5 : W1 m ρ c (Proc.devRef .tc main_arg5) = (a5 m c) := by
  rw [W1_eq m ρ c]
  exact (k0b_keep (A1 m ρ c) main_arg5 (by decide)).trans (L1a_arg5 m ρ c)
theorem L1_arg6 : W1 m ρ c (Proc.devRef .tc main_arg6) = (a6 m c) := by
  rw [W1_eq m ρ c]
  exact (k0b_keep (A1 m ρ c) main_arg6 (by decide)).trans (L1a_arg6 m ρ c)
theorem L1_arg7 : W1 m ρ c (Proc.devRef .tc main_arg7) = (a7 m c) := by
  rw [W1_eq m ρ c]
  exact (k0b_keep (A1 m ρ c) main_arg7 (by decide)).trans (L1a_arg7 m ρ c)
theorem L1_v3 : W1 m ρ c (Proc.devRef .tc main_v3) = (src (a1 m c)) := by
  rw [W1_eq m ρ c]
  exact (k0b_keep (A1 m ρ c) main_v3 (by decide)).trans (L1a_v3 m ρ c)
theorem L1_v6 : W1 m ρ c (Proc.devRef .tc main_v6) = (dst (a1 m c)) := by
  rw [W1_eq m ρ c]
  exact (k0b_keep (A1 m ρ c) main_v6 (by decide)).trans (L1a_v6 m ρ c)
theorem L1_v12 : W1 m ρ c (Proc.devRef .tc main_v12) = (pos (dst (a1 m c))) := by
  rw [W1_eq m ρ c]
  show after k0b (A1 m ρ c) (Proc.devRef .tc main_v12) = _
  rw [k0b_pos, L1a_v6 m ρ c]
theorem L1_v13 : W1 m ρ c (Proc.devRef .tc main_v13) = (rs (dst (a1 m c))) := by
  rw [W1_eq m ρ c]
  show after k0b (A1 m ρ c) (Proc.devRef .tc main_v13) = _
  rw [k0b_rs, L1a_v6 m ρ c]
theorem L1_cst_2 : W1 m ρ c (Proc.devRef .tc main_cst_2) = (constant (F := Ideal) S_ .f32 0x00000000#32) := by
  rw [W1_eq m ρ c]
  show after k0b (A1 m ρ c) (Proc.devRef .tc main_cst_2) = _
  rw [k0b_z]

/-! ### After the nodes' factors -/

theorem L2_arg0 : W2 m ρ c (Proc.devRef .tc main_arg0) = (a0 m c) := by
  exact (k0c_keep (W1 m ρ c) main_arg0 (by decide)).trans (L1_arg0 m ρ c)
theorem L2_arg1 : W2 m ρ c (Proc.devRef .tc main_arg1) = (a1 m c) := by
  exact (k0c_keep (W1 m ρ c) main_arg1 (by decide)).trans (L1_arg1 m ρ c)
theorem L2_arg2 : W2 m ρ c (Proc.devRef .tc main_arg2) = (a2 m c) := by
  exact (k0c_keep (W1 m ρ c) main_arg2 (by decide)).trans (L1_arg2 m ρ c)
theorem L2_arg3 : W2 m ρ c (Proc.devRef .tc main_arg3) = (a3 m c) := by
  exact (k0c_keep (W1 m ρ c) main_arg3 (by decide)).trans (L1_arg3 m ρ c)
theorem L2_arg4 : W2 m ρ c (Proc.devRef .tc main_arg4) = (a4 m c) := by
  exact (k0c_keep (W1 m ρ c) main_arg4 (by decide)).trans (L1_arg4 m ρ c)
theorem L2_arg5 : W2 m ρ c (Proc.devRef .tc main_arg5) = (a5 m c) := by
  exact (k0c_keep (W1 m ρ c) main_arg5 (by decide)).trans (L1_arg5 m ρ c)
theorem L2_arg6 : W2 m ρ c (Proc.devRef .tc main_arg6) = (a6 m c) := by
  exact (k0c_keep (W1 m ρ c) main_arg6 (by decide)).trans (L1_arg6 m ρ c)
theorem L2_arg7 : W2 m ρ c (Proc.devRef .tc main_arg7) = (a7 m c) := by
  exact (k0c_keep (W1 m ρ c) main_arg7 (by decide)).trans (L1_arg7 m ρ c)
theorem L2_v3 : W2 m ρ c (Proc.devRef .tc main_v3) = (src (a1 m c)) := by
  exact (k0c_keep (W1 m ρ c) main_v3 (by decide)).trans (L1_v3 m ρ c)
theorem L2_v6 : W2 m ρ c (Proc.devRef .tc main_v6) = (dst (a1 m c)) := by
  exact (k0c_keep (W1 m ρ c) main_v6 (by decide)).trans (L1_v6 m ρ c)
theorem L2_v14 : W2 m ρ c (Proc.devRef .tc main_v14) = (dinv (dst (a1 m c))) := by
  show after k0c (W1 m ρ c) (Proc.devRef .tc main_v14) = _
  rw [k0c_dinv, L1_v12 m ρ c, L1_v13 m ρ c, L1_cst_2 m ρ c]
  rfl

/-! ### At the first product's entry -/

theorem L3_arg0 : W3 m ρ c (Proc.devRef .tc main_arg0) = (a0 m c) := by
  exact (k0d_keep (W2 m ρ c) main_arg0 (by decide)).trans (L2_arg0 m ρ c)
theorem L3_arg1 : W3 m ρ c (Proc.devRef .tc main_arg1) = (a1 m c) := by
  exact (k0d_keep (W2 m ρ c) main_arg1 (by decide)).trans (L2_arg1 m ρ c)
theorem L3_arg2 : W3 m ρ c (Proc.devRef .tc main_arg2) = (a2 m c) := by
  exact (k0d_keep (W2 m ρ c) main_arg2 (by decide)).trans (L2_arg2 m ρ c)
theorem L3_arg3 : W3 m ρ c (Proc.devRef .tc main_arg3) = (a3 m c) := by
  exact (k0d_keep (W2 m ρ c) main_arg3 (by decide)).trans (L2_arg3 m ρ c)
theorem L3_arg4 : W3 m ρ c (Proc.devRef .tc main_arg4) = (a4 m c) := by
  exact (k0d_keep (W2 m ρ c) main_arg4 (by decide)).trans (L2_arg4 m ρ c)
theorem L3_arg5 : W3 m ρ c (Proc.devRef .tc main_arg5) = (a5 m c) := by
  exact (k0d_keep (W2 m ρ c) main_arg5 (by decide)).trans (L2_arg5 m ρ c)
theorem L3_arg6 : W3 m ρ c (Proc.devRef .tc main_arg6) = (a6 m c) := by
  exact (k0d_keep (W2 m ρ c) main_arg6 (by decide)).trans (L2_arg6 m ρ c)
theorem L3_arg7 : W3 m ρ c (Proc.devRef .tc main_arg7) = (a7 m c) := by
  exact (k0d_keep (W2 m ρ c) main_arg7 (by decide)).trans (L2_arg7 m ρ c)
theorem L3_v3 : W3 m ρ c (Proc.devRef .tc main_v3) = (src (a1 m c)) := by
  exact (k0d_keep (W2 m ρ c) main_v3 (by decide)).trans (L2_v3 m ρ c)
theorem L3_v6 : W3 m ρ c (Proc.devRef .tc main_v6) = (dst (a1 m c)) := by
  exact (k0d_keep (W2 m ρ c) main_v6 (by decide)).trans (L2_v6 m ρ c)
theorem L3_v29 : W3 m ρ c (Proc.devRef .tc main_v29) = (norm (src (a1 m c)) (dst (a1 m c))) := by
  show after k0d (W2 m ρ c) (Proc.devRef .tc main_v29) = _
  rw [k0d_edge, L2_v14 m ρ c, L2_v3 m ρ c, L2_v6 m ρ c]
  rfl
theorem L3_v30 : W3 m ρ c (Proc.devRef .tc main_v30) = (a0 m c) := by
  show after k0d (W2 m ρ c) (Proc.devRef .tc main_v30) = _
  rw [k0d_lhs, L2_arg0 m ρ c]
theorem L3_v31 : W3 m ρ c (Proc.devRef .tc main_v31) = (a2 m c) := by
  show after k0d (W2 m ρ c) (Proc.devRef .tc main_v31) = _
  rw [k0d_rhs, L2_arg2 m ρ c]

/-! ### After the first product -/

theorem L4_arg0 : W4 m ρ c (Proc.devRef .tc main_arg0) = (a0 m c) :=
  (W4_of_ne m ρ c main_arg0 (by decide)).trans (L3_arg0 m ρ c)
theorem L4_arg1 : W4 m ρ c (Proc.devRef .tc main_arg1) = (a1 m c) :=
  (W4_of_ne m ρ c main_arg1 (by decide)).trans (L3_arg1 m ρ c)
theorem L4_arg2 : W4 m ρ c (Proc.devRef .tc main_arg2) = (a2 m c) :=
  (W4_of_ne m ρ c main_arg2 (by decide)).trans (L3_arg2 m ρ c)
theorem L4_arg3 : W4 m ρ c (Proc.devRef .tc main_arg3) = (a3 m c) :=
  (W4_of_ne m ρ c main_arg3 (by decide)).trans (L3_arg3 m ρ c)
theorem L4_arg4 : W4 m ρ c (Proc.devRef .tc main_arg4) = (a4 m c) :=
  (W4_of_ne m ρ c main_arg4 (by decide)).trans (L3_arg4 m ρ c)
theorem L4_arg5 : W4 m ρ c (Proc.devRef .tc main_arg5) = (a5 m c) :=
  (W4_of_ne m ρ c main_arg5 (by decide)).trans (L3_arg5 m ρ c)
theorem L4_arg6 : W4 m ρ c (Proc.devRef .tc main_arg6) = (a6 m c) :=
  (W4_of_ne m ρ c main_arg6 (by decide)).trans (L3_arg6 m ρ c)
theorem L4_arg7 : W4 m ρ c (Proc.devRef .tc main_arg7) = (a7 m c) :=
  (W4_of_ne m ρ c main_arg7 (by decide)).trans (L3_arg7 m ρ c)
theorem L4_v3 : W4 m ρ c (Proc.devRef .tc main_v3) = (src (a1 m c)) :=
  (W4_of_ne m ρ c main_v3 (by decide)).trans (L3_v3 m ρ c)
theorem L4_v6 : W4 m ρ c (Proc.devRef .tc main_v6) = (dst (a1 m c)) :=
  (W4_of_ne m ρ c main_v6 (by decide)).trans (L3_v6 m ρ c)
theorem L4_v29 : W4 m ρ c (Proc.devRef .tc main_v29) = (norm (src (a1 m c)) (dst (a1 m c))) :=
  (W4_of_ne m ρ c main_v29 (by decide)).trans (L3_v29 m ρ c)
theorem L4_v32 : W4 m ρ c (Proc.devRef .tc main_v32) = (Spec.prod (M := 50000) (K := 256) (N := 256) (a0 m c) (a2 m c)) := by
  have h : W4 m ρ c (Proc.devRef .tc main_v32) = (dat0 (V3 m ρ) c).arrAt 2 cfg0.N := W4_arr m ρ c 2
  rw [h, Region0.array_eq (V3 m ρ) c]
  show Spec.prod (M := 50000) (K := 256) (N := 256) (W3 m ρ c (Proc.devRef .tc main_v30)) (W3 m ρ c (Proc.devRef .tc main_v31)) = _
  rw [L3_v30 m ρ c, L3_v31 m ρ c]

/-! ### After layer 1's aggregation -/

theorem L5_arg0 : W5 m ρ c (Proc.devRef .tc main_arg0) = (a0 m c) := by
  exact (k1a_keep (W4 m ρ c) main_arg0 (by decide)).trans (L4_arg0 m ρ c)
theorem L5_arg1 : W5 m ρ c (Proc.devRef .tc main_arg1) = (a1 m c) := by
  exact (k1a_keep (W4 m ρ c) main_arg1 (by decide)).trans (L4_arg1 m ρ c)
theorem L5_arg2 : W5 m ρ c (Proc.devRef .tc main_arg2) = (a2 m c) := by
  exact (k1a_keep (W4 m ρ c) main_arg2 (by decide)).trans (L4_arg2 m ρ c)
theorem L5_arg3 : W5 m ρ c (Proc.devRef .tc main_arg3) = (a3 m c) := by
  exact (k1a_keep (W4 m ρ c) main_arg3 (by decide)).trans (L4_arg3 m ρ c)
theorem L5_arg4 : W5 m ρ c (Proc.devRef .tc main_arg4) = (a4 m c) := by
  exact (k1a_keep (W4 m ρ c) main_arg4 (by decide)).trans (L4_arg4 m ρ c)
theorem L5_arg5 : W5 m ρ c (Proc.devRef .tc main_arg5) = (a5 m c) := by
  exact (k1a_keep (W4 m ρ c) main_arg5 (by decide)).trans (L4_arg5 m ρ c)
theorem L5_arg6 : W5 m ρ c (Proc.devRef .tc main_arg6) = (a6 m c) := by
  exact (k1a_keep (W4 m ρ c) main_arg6 (by decide)).trans (L4_arg6 m ρ c)
theorem L5_arg7 : W5 m ρ c (Proc.devRef .tc main_arg7) = (a7 m c) := by
  exact (k1a_keep (W4 m ρ c) main_arg7 (by decide)).trans (L4_arg7 m ρ c)
theorem L5_v3 : W5 m ρ c (Proc.devRef .tc main_v3) = (src (a1 m c)) := by
  exact (k1a_keep (W4 m ρ c) main_v3 (by decide)).trans (L4_v3 m ρ c)
theorem L5_v6 : W5 m ρ c (Proc.devRef .tc main_v6) = (dst (a1 m c)) := by
  exact (k1a_keep (W4 m ρ c) main_v6 (by decide)).trans (L4_v6 m ρ c)
theorem L5_v29 : W5 m ρ c (Proc.devRef .tc main_v29) = (norm (src (a1 m c)) (dst (a1 m c))) := by
  exact (k1a_keep (W4 m ρ c) main_v29 (by decide)).trans (L4_v29 m ρ c)
theorem L5_v48 : W5 m ρ c (Proc.devRef .tc main_v48) = (layer (norm (src (a1 m c)) (dst (a1 m c))) (src (a1 m c)) (dst (a1 m c)) (Spec.prod (M := 50000) (K := 256) (N := 256) (a0 m c) (a2 m c)) (a3 m c)) := by
  show after k1a (W4 m ρ c) (Proc.devRef .tc main_v48) = _
  rw [k1a_layer, L4_v29 m ρ c, L4_v3 m ρ c, L4_v6 m ρ c, L4_v32 m ρ c, L4_arg3 m ρ c]

/-! ### After the rectifier -/

theorem L6_arg0 : W6 m ρ c (Proc.devRef .tc main_arg0) = (a0 m c) := by
  exact (k1b_keep (W5 m ρ c) main_arg0 (by decide)).trans (L5_arg0 m ρ c)
theorem L6_arg1 : W6 m ρ c (Proc.devRef .tc main_arg1) = (a1 m c) := by
  exact (k1b_keep (W5 m ρ c) main_arg1 (by decide)).trans (L5_arg1 m ρ c)
theorem L6_arg2 : W6 m ρ c (Proc.devRef .tc main_arg2) = (a2 m c) := by
  exact (k1b_keep (W5 m ρ c) main_arg2 (by decide)).trans (L5_arg2 m ρ c)
theorem L6_arg3 : W6 m ρ c (Proc.devRef .tc main_arg3) = (a3 m c) := by
  exact (k1b_keep (W5 m ρ c) main_arg3 (by decide)).trans (L5_arg3 m ρ c)
theorem L6_arg4 : W6 m ρ c (Proc.devRef .tc main_arg4) = (a4 m c) := by
  exact (k1b_keep (W5 m ρ c) main_arg4 (by decide)).trans (L5_arg4 m ρ c)
theorem L6_arg5 : W6 m ρ c (Proc.devRef .tc main_arg5) = (a5 m c) := by
  exact (k1b_keep (W5 m ρ c) main_arg5 (by decide)).trans (L5_arg5 m ρ c)
theorem L6_arg6 : W6 m ρ c (Proc.devRef .tc main_arg6) = (a6 m c) := by
  exact (k1b_keep (W5 m ρ c) main_arg6 (by decide)).trans (L5_arg6 m ρ c)
theorem L6_arg7 : W6 m ρ c (Proc.devRef .tc main_arg7) = (a7 m c) := by
  exact (k1b_keep (W5 m ρ c) main_arg7 (by decide)).trans (L5_arg7 m ρ c)
theorem L6_v3 : W6 m ρ c (Proc.devRef .tc main_v3) = (src (a1 m c)) := by
  exact (k1b_keep (W5 m ρ c) main_v3 (by decide)).trans (L5_v3 m ρ c)
theorem L6_v6 : W6 m ρ c (Proc.devRef .tc main_v6) = (dst (a1 m c)) := by
  exact (k1b_keep (W5 m ρ c) main_v6 (by decide)).trans (L5_v6 m ρ c)
theorem L6_v29 : W6 m ρ c (Proc.devRef .tc main_v29) = (norm (src (a1 m c)) (dst (a1 m c))) := by
  exact (k1b_keep (W5 m ρ c) main_v29 (by decide)).trans (L5_v29 m ρ c)
theorem L6_v49 : W6 m ρ c (Proc.devRef .tc main_v49) = (relu (layer (norm (src (a1 m c)) (dst (a1 m c))) (src (a1 m c)) (dst (a1 m c)) (Spec.prod (M := 50000) (K := 256) (N := 256) (a0 m c) (a2 m c)) (a3 m c))) := by
  show after k1b (W5 m ρ c) (Proc.devRef .tc main_v49) = _
  rw [k1b_relu, L5_v48 m ρ c]

/-! ### At the second product's entry -/

theorem L7_arg0 : W7 m ρ c (Proc.devRef .tc main_arg0) = (a0 m c) := by
  exact (k1c_keep (W6 m ρ c) main_arg0 (by decide)).trans (L6_arg0 m ρ c)
theorem L7_arg1 : W7 m ρ c (Proc.devRef .tc main_arg1) = (a1 m c) := by
  exact (k1c_keep (W6 m ρ c) main_arg1 (by decide)).trans (L6_arg1 m ρ c)
theorem L7_arg2 : W7 m ρ c (Proc.devRef .tc main_arg2) = (a2 m c) := by
  exact (k1c_keep (W6 m ρ c) main_arg2 (by decide)).trans (L6_arg2 m ρ c)
theorem L7_arg3 : W7 m ρ c (Proc.devRef .tc main_arg3) = (a3 m c) := by
  exact (k1c_keep (W6 m ρ c) main_arg3 (by decide)).trans (L6_arg3 m ρ c)
theorem L7_arg4 : W7 m ρ c (Proc.devRef .tc main_arg4) = (a4 m c) := by
  exact (k1c_keep (W6 m ρ c) main_arg4 (by decide)).trans (L6_arg4 m ρ c)
theorem L7_arg5 : W7 m ρ c (Proc.devRef .tc main_arg5) = (a5 m c) := by
  exact (k1c_keep (W6 m ρ c) main_arg5 (by decide)).trans (L6_arg5 m ρ c)
theorem L7_arg6 : W7 m ρ c (Proc.devRef .tc main_arg6) = (a6 m c) := by
  exact (k1c_keep (W6 m ρ c) main_arg6 (by decide)).trans (L6_arg6 m ρ c)
theorem L7_arg7 : W7 m ρ c (Proc.devRef .tc main_arg7) = (a7 m c) := by
  exact (k1c_keep (W6 m ρ c) main_arg7 (by decide)).trans (L6_arg7 m ρ c)
theorem L7_v3 : W7 m ρ c (Proc.devRef .tc main_v3) = (src (a1 m c)) := by
  exact (k1c_keep (W6 m ρ c) main_v3 (by decide)).trans (L6_v3 m ρ c)
theorem L7_v6 : W7 m ρ c (Proc.devRef .tc main_v6) = (dst (a1 m c)) := by
  exact (k1c_keep (W6 m ρ c) main_v6 (by decide)).trans (L6_v6 m ρ c)
theorem L7_v29 : W7 m ρ c (Proc.devRef .tc main_v29) = (norm (src (a1 m c)) (dst (a1 m c))) := by
  exact (k1c_keep (W6 m ρ c) main_v29 (by decide)).trans (L6_v29 m ρ c)
theorem L7_v50 : W7 m ρ c (Proc.devRef .tc main_v50) = (relu (layer (norm (src (a1 m c)) (dst (a1 m c))) (src (a1 m c)) (dst (a1 m c)) (Spec.prod (M := 50000) (K := 256) (N := 256) (a0 m c) (a2 m c)) (a3 m c))) := by
  show after k1c (W6 m ρ c) (Proc.devRef .tc main_v50) = _
  rw [k1c_lhs, L6_v49 m ρ c]
theorem L7_v51 : W7 m ρ c (Proc.devRef .tc main_v51) = (a4 m c) := by
  show after k1c (W6 m ρ c) (Proc.devRef .tc main_v51) = _
  rw [k1c_rhs, L6_arg4 m ρ c]

/-! ### After the second product -/

theorem L8_arg0 : W8 m ρ c (Proc.devRef .tc main_arg0) = (a0 m c) :=
  (W8_of_ne m ρ c main_arg0 (by decide)).trans (L7_arg0 m ρ c)
theorem L8_arg1 : W8 m ρ c (Proc.devRef .tc main_arg1) = (a1 m c) :=
  (W8_of_ne m ρ c main_arg1 (by decide)).trans (L7_arg1 m ρ c)
theorem L8_arg2 : W8 m ρ c (Proc.devRef .tc main_arg2) = (a2 m c) :=
  (W8_of_ne m ρ c main_arg2 (by decide)).trans (L7_arg2 m ρ c)
theorem L8_arg3 : W8 m ρ c (Proc.devRef .tc main_arg3) = (a3 m c) :=
  (W8_of_ne m ρ c main_arg3 (by decide)).trans (L7_arg3 m ρ c)
theorem L8_arg4 : W8 m ρ c (Proc.devRef .tc main_arg4) = (a4 m c) :=
  (W8_of_ne m ρ c main_arg4 (by decide)).trans (L7_arg4 m ρ c)
theorem L8_arg5 : W8 m ρ c (Proc.devRef .tc main_arg5) = (a5 m c) :=
  (W8_of_ne m ρ c main_arg5 (by decide)).trans (L7_arg5 m ρ c)
theorem L8_arg6 : W8 m ρ c (Proc.devRef .tc main_arg6) = (a6 m c) :=
  (W8_of_ne m ρ c main_arg6 (by decide)).trans (L7_arg6 m ρ c)
theorem L8_arg7 : W8 m ρ c (Proc.devRef .tc main_arg7) = (a7 m c) :=
  (W8_of_ne m ρ c main_arg7 (by decide)).trans (L7_arg7 m ρ c)
theorem L8_v3 : W8 m ρ c (Proc.devRef .tc main_v3) = (src (a1 m c)) :=
  (W8_of_ne m ρ c main_v3 (by decide)).trans (L7_v3 m ρ c)
theorem L8_v6 : W8 m ρ c (Proc.devRef .tc main_v6) = (dst (a1 m c)) :=
  (W8_of_ne m ρ c main_v6 (by decide)).trans (L7_v6 m ρ c)
theorem L8_v29 : W8 m ρ c (Proc.devRef .tc main_v29) = (norm (src (a1 m c)) (dst (a1 m c))) :=
  (W8_of_ne m ρ c main_v29 (by decide)).trans (L7_v29 m ρ c)
theorem L8_v52 : W8 m ρ c (Proc.devRef .tc main_v52) = (Spec.prod (M := 50000) (K := 256) (N := 256) (relu (layer (norm (src (a1 m c)) (dst (a1 m c))) (src (a1 m c)) (dst (a1 m c)) (Spec.prod (M := 50000) (K := 256) (N := 256) (a0 m c) (a2 m c)) (a3 m c))) (a4 m c)) := by
  have h : W8 m ρ c (Proc.devRef .tc main_v52) = (dat1 (V7 m ρ) c).arrAt 2 cfg1.N := W8_arr m ρ c 2
  rw [h, Region1.array_eq (V7 m ρ) c]
  show Spec.prod (M := 50000) (K := 256) (N := 256) (W7 m ρ c (Proc.devRef .tc main_v50)) (W7 m ρ c (Proc.devRef .tc main_v51)) = _
  rw [L7_v50 m ρ c, L7_v51 m ρ c]

/-! ### After layer 2's aggregation -/

theorem L9_arg0 : W9 m ρ c (Proc.devRef .tc main_arg0) = (a0 m c) := by
  exact (k2a_keep (W8 m ρ c) main_arg0 (by decide)).trans (L8_arg0 m ρ c)
theorem L9_arg1 : W9 m ρ c (Proc.devRef .tc main_arg1) = (a1 m c) := by
  exact (k2a_keep (W8 m ρ c) main_arg1 (by decide)).trans (L8_arg1 m ρ c)
theorem L9_arg2 : W9 m ρ c (Proc.devRef .tc main_arg2) = (a2 m c) := by
  exact (k2a_keep (W8 m ρ c) main_arg2 (by decide)).trans (L8_arg2 m ρ c)
theorem L9_arg3 : W9 m ρ c (Proc.devRef .tc main_arg3) = (a3 m c) := by
  exact (k2a_keep (W8 m ρ c) main_arg3 (by decide)).trans (L8_arg3 m ρ c)
theorem L9_arg4 : W9 m ρ c (Proc.devRef .tc main_arg4) = (a4 m c) := by
  exact (k2a_keep (W8 m ρ c) main_arg4 (by decide)).trans (L8_arg4 m ρ c)
theorem L9_arg5 : W9 m ρ c (Proc.devRef .tc main_arg5) = (a5 m c) := by
  exact (k2a_keep (W8 m ρ c) main_arg5 (by decide)).trans (L8_arg5 m ρ c)
theorem L9_arg6 : W9 m ρ c (Proc.devRef .tc main_arg6) = (a6 m c) := by
  exact (k2a_keep (W8 m ρ c) main_arg6 (by decide)).trans (L8_arg6 m ρ c)
theorem L9_arg7 : W9 m ρ c (Proc.devRef .tc main_arg7) = (a7 m c) := by
  exact (k2a_keep (W8 m ρ c) main_arg7 (by decide)).trans (L8_arg7 m ρ c)
theorem L9_v3 : W9 m ρ c (Proc.devRef .tc main_v3) = (src (a1 m c)) := by
  exact (k2a_keep (W8 m ρ c) main_v3 (by decide)).trans (L8_v3 m ρ c)
theorem L9_v6 : W9 m ρ c (Proc.devRef .tc main_v6) = (dst (a1 m c)) := by
  exact (k2a_keep (W8 m ρ c) main_v6 (by decide)).trans (L8_v6 m ρ c)
theorem L9_v29 : W9 m ρ c (Proc.devRef .tc main_v29) = (norm (src (a1 m c)) (dst (a1 m c))) := by
  exact (k2a_keep (W8 m ρ c) main_v29 (by decide)).trans (L8_v29 m ρ c)
theorem L9_v68 : W9 m ρ c (Proc.devRef .tc main_v68) = (layer (norm (src (a1 m c)) (dst (a1 m c))) (src (a1 m c)) (dst (a1 m c)) (Spec.prod (M := 50000) (K := 256) (N := 256) (relu (layer (norm (src (a1 m c)) (dst (a1 m c))) (src (a1 m c)) (dst (a1 m c)) (Spec.prod (M := 50000) (K := 256) (N := 256) (a0 m c) (a2 m c)) (a3 m c))) (a4 m c)) (a5 m c)) := by
  show after k2a (W8 m ρ c) (Proc.devRef .tc main_v68) = _
  rw [k2a_layer, L8_v29 m ρ c, L8_v3 m ρ c, L8_v6 m ρ c, L8_v52 m ρ c, L8_arg5 m ρ c]

/-! ### After the rectifier -/

theorem L10_arg0 : W10 m ρ c (Proc.devRef .tc main_arg0) = (a0 m c) := by
  exact (k2b_keep (W9 m ρ c) main_arg0 (by decide)).trans (L9_arg0 m ρ c)
theorem L10_arg1 : W10 m ρ c (Proc.devRef .tc main_arg1) = (a1 m c) := by
  exact (k2b_keep (W9 m ρ c) main_arg1 (by decide)).trans (L9_arg1 m ρ c)
theorem L10_arg2 : W10 m ρ c (Proc.devRef .tc main_arg2) = (a2 m c) := by
  exact (k2b_keep (W9 m ρ c) main_arg2 (by decide)).trans (L9_arg2 m ρ c)
theorem L10_arg3 : W10 m ρ c (Proc.devRef .tc main_arg3) = (a3 m c) := by
  exact (k2b_keep (W9 m ρ c) main_arg3 (by decide)).trans (L9_arg3 m ρ c)
theorem L10_arg4 : W10 m ρ c (Proc.devRef .tc main_arg4) = (a4 m c) := by
  exact (k2b_keep (W9 m ρ c) main_arg4 (by decide)).trans (L9_arg4 m ρ c)
theorem L10_arg5 : W10 m ρ c (Proc.devRef .tc main_arg5) = (a5 m c) := by
  exact (k2b_keep (W9 m ρ c) main_arg5 (by decide)).trans (L9_arg5 m ρ c)
theorem L10_arg6 : W10 m ρ c (Proc.devRef .tc main_arg6) = (a6 m c) := by
  exact (k2b_keep (W9 m ρ c) main_arg6 (by decide)).trans (L9_arg6 m ρ c)
theorem L10_arg7 : W10 m ρ c (Proc.devRef .tc main_arg7) = (a7 m c) := by
  exact (k2b_keep (W9 m ρ c) main_arg7 (by decide)).trans (L9_arg7 m ρ c)
theorem L10_v3 : W10 m ρ c (Proc.devRef .tc main_v3) = (src (a1 m c)) := by
  exact (k2b_keep (W9 m ρ c) main_v3 (by decide)).trans (L9_v3 m ρ c)
theorem L10_v6 : W10 m ρ c (Proc.devRef .tc main_v6) = (dst (a1 m c)) := by
  exact (k2b_keep (W9 m ρ c) main_v6 (by decide)).trans (L9_v6 m ρ c)
theorem L10_v29 : W10 m ρ c (Proc.devRef .tc main_v29) = (norm (src (a1 m c)) (dst (a1 m c))) := by
  exact (k2b_keep (W9 m ρ c) main_v29 (by decide)).trans (L9_v29 m ρ c)
theorem L10_v69 : W10 m ρ c (Proc.devRef .tc main_v69) = (relu (layer (norm (src (a1 m c)) (dst (a1 m c))) (src (a1 m c)) (dst (a1 m c)) (Spec.prod (M := 50000) (K := 256) (N := 256) (relu (layer (norm (src (a1 m c)) (dst (a1 m c))) (src (a1 m c)) (dst (a1 m c)) (Spec.prod (M := 50000) (K := 256) (N := 256) (a0 m c) (a2 m c)) (a3 m c))) (a4 m c)) (a5 m c))) := by
  show after k2b (W9 m ρ c) (Proc.devRef .tc main_v69) = _
  rw [k2b_relu, L9_v68 m ρ c]

/-! ### At the third product's entry -/

theorem L11_arg0 : W11 m ρ c (Proc.devRef .tc main_arg0) = (a0 m c) := by
  exact (k2c_keep (W10 m ρ c) main_arg0 (by decide)).trans (L10_arg0 m ρ c)
theorem L11_arg1 : W11 m ρ c (Proc.devRef .tc main_arg1) = (a1 m c) := by
  exact (k2c_keep (W10 m ρ c) main_arg1 (by decide)).trans (L10_arg1 m ρ c)
theorem L11_arg2 : W11 m ρ c (Proc.devRef .tc main_arg2) = (a2 m c) := by
  exact (k2c_keep (W10 m ρ c) main_arg2 (by decide)).trans (L10_arg2 m ρ c)
theorem L11_arg3 : W11 m ρ c (Proc.devRef .tc main_arg3) = (a3 m c) := by
  exact (k2c_keep (W10 m ρ c) main_arg3 (by decide)).trans (L10_arg3 m ρ c)
theorem L11_arg4 : W11 m ρ c (Proc.devRef .tc main_arg4) = (a4 m c) := by
  exact (k2c_keep (W10 m ρ c) main_arg4 (by decide)).trans (L10_arg4 m ρ c)
theorem L11_arg5 : W11 m ρ c (Proc.devRef .tc main_arg5) = (a5 m c) := by
  exact (k2c_keep (W10 m ρ c) main_arg5 (by decide)).trans (L10_arg5 m ρ c)
theorem L11_arg6 : W11 m ρ c (Proc.devRef .tc main_arg6) = (a6 m c) := by
  exact (k2c_keep (W10 m ρ c) main_arg6 (by decide)).trans (L10_arg6 m ρ c)
theorem L11_arg7 : W11 m ρ c (Proc.devRef .tc main_arg7) = (a7 m c) := by
  exact (k2c_keep (W10 m ρ c) main_arg7 (by decide)).trans (L10_arg7 m ρ c)
theorem L11_v3 : W11 m ρ c (Proc.devRef .tc main_v3) = (src (a1 m c)) := by
  exact (k2c_keep (W10 m ρ c) main_v3 (by decide)).trans (L10_v3 m ρ c)
theorem L11_v6 : W11 m ρ c (Proc.devRef .tc main_v6) = (dst (a1 m c)) := by
  exact (k2c_keep (W10 m ρ c) main_v6 (by decide)).trans (L10_v6 m ρ c)
theorem L11_v29 : W11 m ρ c (Proc.devRef .tc main_v29) = (norm (src (a1 m c)) (dst (a1 m c))) := by
  exact (k2c_keep (W10 m ρ c) main_v29 (by decide)).trans (L10_v29 m ρ c)
theorem L11_v70 : W11 m ρ c (Proc.devRef .tc main_v70) = (relu (layer (norm (src (a1 m c)) (dst (a1 m c))) (src (a1 m c)) (dst (a1 m c)) (Spec.prod (M := 50000) (K := 256) (N := 256) (relu (layer (norm (src (a1 m c)) (dst (a1 m c))) (src (a1 m c)) (dst (a1 m c)) (Spec.prod (M := 50000) (K := 256) (N := 256) (a0 m c) (a2 m c)) (a3 m c))) (a4 m c)) (a5 m c))) := by
  show after k2c (W10 m ρ c) (Proc.devRef .tc main_v70) = _
  rw [k2c_lhs, L10_v69 m ρ c]
theorem L11_v71 : W11 m ρ c (Proc.devRef .tc main_v71) = (a6 m c) := by
  show after k2c (W10 m ρ c) (Proc.devRef .tc main_v71) = _
  rw [k2c_rhs, L10_arg6 m ρ c]

/-! ### After the third product -/

theorem L12_arg0 : W12 m ρ c (Proc.devRef .tc main_arg0) = (a0 m c) :=
  (W12_of_ne m ρ c main_arg0 (by decide)).trans (L11_arg0 m ρ c)
theorem L12_arg1 : W12 m ρ c (Proc.devRef .tc main_arg1) = (a1 m c) :=
  (W12_of_ne m ρ c main_arg1 (by decide)).trans (L11_arg1 m ρ c)
theorem L12_arg2 : W12 m ρ c (Proc.devRef .tc main_arg2) = (a2 m c) :=
  (W12_of_ne m ρ c main_arg2 (by decide)).trans (L11_arg2 m ρ c)
theorem L12_arg3 : W12 m ρ c (Proc.devRef .tc main_arg3) = (a3 m c) :=
  (W12_of_ne m ρ c main_arg3 (by decide)).trans (L11_arg3 m ρ c)
theorem L12_arg4 : W12 m ρ c (Proc.devRef .tc main_arg4) = (a4 m c) :=
  (W12_of_ne m ρ c main_arg4 (by decide)).trans (L11_arg4 m ρ c)
theorem L12_arg5 : W12 m ρ c (Proc.devRef .tc main_arg5) = (a5 m c) :=
  (W12_of_ne m ρ c main_arg5 (by decide)).trans (L11_arg5 m ρ c)
theorem L12_arg6 : W12 m ρ c (Proc.devRef .tc main_arg6) = (a6 m c) :=
  (W12_of_ne m ρ c main_arg6 (by decide)).trans (L11_arg6 m ρ c)
theorem L12_arg7 : W12 m ρ c (Proc.devRef .tc main_arg7) = (a7 m c) :=
  (W12_of_ne m ρ c main_arg7 (by decide)).trans (L11_arg7 m ρ c)
theorem L12_v3 : W12 m ρ c (Proc.devRef .tc main_v3) = (src (a1 m c)) :=
  (W12_of_ne m ρ c main_v3 (by decide)).trans (L11_v3 m ρ c)
theorem L12_v6 : W12 m ρ c (Proc.devRef .tc main_v6) = (dst (a1 m c)) :=
  (W12_of_ne m ρ c main_v6 (by decide)).trans (L11_v6 m ρ c)
theorem L12_v29 : W12 m ρ c (Proc.devRef .tc main_v29) = (norm (src (a1 m c)) (dst (a1 m c))) :=
  (W12_of_ne m ρ c main_v29 (by decide)).trans (L11_v29 m ρ c)
theorem L12_v72 : W12 m ρ c (Proc.devRef .tc main_v72) = (Spec.prod (M := 50000) (K := 256) (N := 1) (relu (layer (norm (src (a1 m c)) (dst (a1 m c))) (src (a1 m c)) (dst (a1 m c)) (Spec.prod (M := 50000) (K := 256) (N := 256) (relu (layer (norm (src (a1 m c)) (dst (a1 m c))) (src (a1 m c)) (dst (a1 m c)) (Spec.prod (M := 50000) (K := 256) (N := 256) (a0 m c) (a2 m c)) (a3 m c))) (a4 m c)) (a5 m c))) (a6 m c)) := by
  have h : W12 m ρ c (Proc.devRef .tc main_v72) = (dat2 (V11 m ρ) c).arrAt 2 cfg2.N := W12_arr m ρ c 2
  rw [h, Region2.array_eq (V11 m ρ) c]
  show Spec.prod (M := 50000) (K := 256) (N := 1) (W11 m ρ c (Proc.devRef .tc main_v70)) (W11 m ρ c (Proc.devRef .tc main_v71)) = _
  rw [L11_v70 m ρ c, L11_v71 m ρ c]

/-! ### At the return -/

theorem L13_v87 : W13 m ρ c (Proc.devRef .tc main_v87) = (out (norm (src (a1 m c)) (dst (a1 m c))) (src (a1 m c)) (dst (a1 m c)) (Spec.prod (M := 50000) (K := 256) (N := 1) (relu (layer (norm (src (a1 m c)) (dst (a1 m c))) (src (a1 m c)) (dst (a1 m c)) (Spec.prod (M := 50000) (K := 256) (N := 256) (relu (layer (norm (src (a1 m c)) (dst (a1 m c))) (src (a1 m c)) (dst (a1 m c)) (Spec.prod (M := 50000) (K := 256) (N := 256) (a0 m c) (a2 m c)) (a3 m c))) (a4 m c)) (a5 m c))) (a6 m c)) (a7 m c)) := by
  show after k3 (W12 m ρ c) (Proc.devRef .tc main_v87) = _
  rw [k3_out, L12_v29 m ρ c, L12_v3 m ρ c, L12_v6 m ρ c, L12_v72 m ρ c, L12_arg7 m ρ c]

/-- THE KERNEL'S RESULT: the result buffer after the run is `gcn` of the arguments as launched. -/
theorem kernel_value : W13 m ρ c (Proc.devRef .tc main_v87)
    = gcn (a0 m c) (a1 m c) (a2 m c) (a3 m c) (a4 m c) (a5 m c) (a6 m c) (a7 m c) := L13_v87 m ρ c

end Cert.KernelIdeal.Chain

end
-- ==== Proof.RefCut.lean ====
/-
  The reference program's line of host operations at the extended reals, under one name the stretches below cut.
-/
import proofs.«112917_j66383014527488_1_alg».proof.Proof.RefRun
import Idealize.ShloMosaic.PureOps.Ideal

noncomputable section

namespace Cert.ReferenceIdeal.HostStages

open Cert.ReferenceIdeal Cert.ReferenceIdeal.ValueP Idealize.ShloMosaic Idealize.ShloMosaic.StableHlo

/-- The reference's 105 host operations, in order, at the ideal instance. -/
abbrev ops' : List (HloOp τ sig (Elt Ideal)) := ops (F := Ideal)

end Cert.ReferenceIdeal.HostStages

end
-- ==== Proof.RHost0.lean ====
/-
  The reference program's host stretches up to and including the first product, read as the shared host arithmetic (HostSpec.lean). The program is one
  line of 105 host operations; a stretch is a run of consecutive operations of that line. Each lemma is stated for ANY
  contents `V` of the buffers when the stretch is entered and says what one buffer holds after it, as a closed function
  of what the stretch's input buffers held; a buffer the stretch does not write keeps its contents.
-/
import proofs.«112917_j66383014527488_1_alg».proof.Proof.RefCut
import proofs.«112917_j66383014527488_1_alg».proof.Proof.HostSpec
import Idealize.ShloMosaic.Lib.StableHlo.Run

set_option maxRecDepth 16384

noncomputable section

namespace Cert.ReferenceIdeal.HostStages

open Cert.ReferenceIdeal Cert.ReferenceIdeal.Gen Cert.ReferenceIdeal.ValueP Cert.KernelIdeal.HostSpec
open Idealize.ShloMosaic Idealize.ShloMosaic.TcCoe Idealize.ShloMosaic.StableHlo Idealize.SL.Sem

/-! ## The edges' endpoints -/

abbrev r0a : List (HloOp τ sig (Elt Ideal)) := ops'.take 7
/-- The buffers this stretch writes. -/
abbrev r0a_W : List (Ref sig .tc) := [main_v0, main_v1, main_v2, main_v3, main_v4, main_v5, main_v6]
set_option maxHeartbeats 1000000 in
theorem r0a_writes : (r0a).Forall fun op => op.writes ⊆ ((r0a_W).map (Proc.devRef (τ := τ) .tc)).toFinset := by
  simp only [r0a, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem r0a_keep (V : Valuation τ sig (Elt Ideal)) (r : Ref sig .tc) (h : r ∉ r0a_W) :
    after r0a V (Proc.devRef .tc r) = V (Proc.devRef .tc r) :=
  after_of_writes_sub r0a V r0a_writes h

set_option maxHeartbeats 1000000 in
theorem r0a_src (V : Valuation τ sig (Elt Ideal)) :
    after r0a V (Proc.devRef .tc main_v3) = src (V (Proc.devRef .tc main_arg1)) := by
  dsimp only [r0a, ops', ops, List.take, List.drop]
  after_results <;> rfl

set_option maxHeartbeats 1000000 in
theorem r0a_dst (V : Valuation τ sig (Elt Ideal)) :
    after r0a V (Proc.devRef .tc main_v6) = dst (V (Proc.devRef .tc main_arg1)) := by
  dsimp only [r0a, ops', ops, List.take, List.drop]
  after_results <;> rfl

/-! ## The nodes' degrees: where positive, and their reciprocal square roots -/

abbrev r0b : List (HloOp τ sig (Elt Ideal)) := (ops'.drop 7).take 11
/-- The buffers this stretch writes. -/
abbrev r0b_W : List (Ref sig .tc) := [main_cst, main_v7, main_cst_0, main_v8, main_v9, main_v10, main_cst_1, main_v11, main_v12, main_v13, main_cst_2]
set_option maxHeartbeats 1000000 in
theorem r0b_writes : (r0b).Forall fun op => op.writes ⊆ ((r0b_W).map (Proc.devRef (τ := τ) .tc)).toFinset := by
  simp only [r0b, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem r0b_keep (V : Valuation τ sig (Elt Ideal)) (r : Ref sig .tc) (h : r ∉ r0b_W) :
    after r0b V (Proc.devRef .tc r) = V (Proc.devRef .tc r) :=
  after_of_writes_sub r0b V r0b_writes h

set_option maxHeartbeats 1000000 in
theorem r0b_pos (V : Valuation τ sig (Elt Ideal)) :
    after r0b V (Proc.devRef .tc main_v12) = pos (V (Proc.devRef .tc main_v6)) := by
  dsimp only [r0b, ops', ops, List.take, List.drop]
  after_results_simp
  unfold pos deg zeros col
  rfl

set_option maxHeartbeats 1000000 in
theorem r0b_rs (V : Valuation τ sig (Elt Ideal)) :
    after r0b V (Proc.devRef .tc main_v13) = rs (V (Proc.devRef .tc main_v6)) := by
  dsimp only [r0b, ops', ops, List.take, List.drop]
  after_results_simp
  unfold rs deg col
  rfl

set_option maxHeartbeats 1000000 in
theorem r0b_z (V : Valuation τ sig (Elt Ideal)) :
    after r0b V (Proc.devRef .tc main_cst_2) = constant (F := Ideal) S_ .f32 0x00000000#32 := by
  dsimp only [r0b, ops', ops, List.take, List.drop]
  after_results_simp
  try rfl

/-! ## The nodes' factors (the outlined select) -/

abbrev r0c : List (HloOp τ sig (Elt Ideal)) := (ops'.drop 18).take 3
/-- The buffers this stretch writes. -/
abbrev r0c_W : List (Ref sig .tc) := [main_call0_v0, main_call0_v1, main_v14]
set_option maxHeartbeats 1000000 in
theorem r0c_writes : (r0c).Forall fun op => op.writes ⊆ ((r0c_W).map (Proc.devRef (τ := τ) .tc)).toFinset := by
  simp only [r0c, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem r0c_keep (V : Valuation τ sig (Elt Ideal)) (r : Ref sig .tc) (h : r ∉ r0c_W) :
    after r0c V (Proc.devRef .tc r) = V (Proc.devRef .tc r) :=
  after_of_writes_sub r0c V r0c_writes h

set_option maxHeartbeats 1000000 in
theorem r0c_dinv (V : Valuation τ sig (Elt Ideal)) :
    after r0c V (Proc.devRef .tc main_v14) = dinvOf (V (Proc.devRef .tc main_v12)) (V (Proc.devRef .tc main_v13)) (V (Proc.devRef .tc main_cst_2)) := by
  dsimp only [r0c, ops', ops, List.take, List.drop]
  after_results_simp
  unfold dinvOf
  rfl

/-! ## The edges' weights -/

abbrev r0d : List (HloOp τ sig (Elt Ideal)) := (ops'.drop 21).take 19
/-- The buffers this stretch writes. -/
abbrev r0d_W : List (Ref sig .tc) := [main_c, main_v15, main_v16, main_c_3, main_v17, main_v18, main_v19, main_v20, main_v21, main_c_4, main_v22, main_v23, main_c_5, main_v24, main_v25, main_v26, main_v27, main_v28, main_v29]
set_option maxHeartbeats 1000000 in
theorem r0d_writes : (r0d).Forall fun op => op.writes ⊆ ((r0d_W).map (Proc.devRef (τ := τ) .tc)).toFinset := by
  simp only [r0d, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem r0d_keep (V : Valuation τ sig (Elt Ideal)) (r : Ref sig .tc) (h : r ∉ r0d_W) :
    after r0d V (Proc.devRef .tc r) = V (Proc.devRef .tc r) :=
  after_of_writes_sub r0d V r0d_writes h

set_option maxHeartbeats 1000000 in
theorem r0d_edge (V : Valuation τ sig (Elt Ideal)) :
    after r0d V (Proc.devRef .tc main_v29) = edge (V (Proc.devRef .tc main_v14)) (V (Proc.devRef .tc main_v3)) (V (Proc.devRef .tc main_v6)) := by
  dsimp only [r0d, ops', ops, List.take, List.drop]
  after_results_simp
  unfold edge col wrap
  rfl

/-! ## The first dense product, one dot_general -/

abbrev rp0 : List (HloOp τ sig (Elt Ideal)) := (ops'.drop 40).take 1
/-- The buffers this stretch writes. -/
abbrev rp0_W : List (Ref sig .tc) := [main_v30]
set_option maxHeartbeats 1000000 in
theorem rp0_writes : (rp0).Forall fun op => op.writes ⊆ ((rp0_W).map (Proc.devRef (τ := τ) .tc)).toFinset := by
  simp only [rp0, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem rp0_keep (V : Valuation τ sig (Elt Ideal)) (r : Ref sig .tc) (h : r ∉ rp0_W) :
    after rp0 V (Proc.devRef .tc r) = V (Proc.devRef .tc r) :=
  after_of_writes_sub rp0 V rp0_writes h

set_option maxHeartbeats 1000000 in
theorem rp0_prod (V : Valuation τ sig (Elt Ideal)) :
    after rp0 V (Proc.devRef .tc main_v30) = Host.dotGeneral (F := Ideal) (φ₁ := .f32) (φ₂ := .f32) dot_S50000x256_S256x256_S50000x256_1_0_0_1_n_n none (V (Proc.devRef .tc main_arg0)) (V (Proc.devRef .tc main_arg2)) := by
  dsimp only [rp0, ops', ops, List.take, List.drop]
  after_results_simp
  try rfl

end Cert.ReferenceIdeal.HostStages

end
-- ==== Proof.RHost1.lean ====
/-
  The reference program's host stretches from the first product to the second, included, read as the shared host arithmetic (HostSpec.lean). The program is one
  line of 105 host operations; a stretch is a run of consecutive operations of that line. Each lemma is stated for ANY
  contents `V` of the buffers when the stretch is entered and says what one buffer holds after it, as a closed function
  of what the stretch's input buffers held; a buffer the stretch does not write keeps its contents.
-/
import proofs.«112917_j66383014527488_1_alg».proof.Proof.RefCut
import proofs.«112917_j66383014527488_1_alg».proof.Proof.HostSpec
import Idealize.ShloMosaic.Lib.StableHlo.Run

set_option maxRecDepth 16384

noncomputable section

namespace Cert.ReferenceIdeal.HostStages

open Cert.ReferenceIdeal Cert.ReferenceIdeal.Gen Cert.ReferenceIdeal.ValueP Cert.KernelIdeal.HostSpec
open Idealize.ShloMosaic Idealize.ShloMosaic.TcCoe Idealize.ShloMosaic.StableHlo Idealize.SL.Sem

/-! ## Layer 1's aggregation over the edges -/

abbrev r1a : List (HloOp τ sig (Elt Ideal)) := (ops'.drop 41).take 19
/-- The buffers this stretch writes. -/
abbrev r1a_W : List (Ref sig .tc) := [main_v31, main_c_6, main_v32, main_v33, main_c_7, main_v34, main_v35, main_v36, main_v37, main_v38, main_v39, main_v40, main_cst_8, main_v41, main_v42, main_v43, main_v44, main_v45, main_v46]
set_option maxHeartbeats 1000000 in
theorem r1a_writes : (r1a).Forall fun op => op.writes ⊆ ((r1a_W).map (Proc.devRef (τ := τ) .tc)).toFinset := by
  simp only [r1a, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem r1a_keep (V : Valuation τ sig (Elt Ideal)) (r : Ref sig .tc) (h : r ∉ r1a_W) :
    after r1a V (Proc.devRef .tc r) = V (Proc.devRef .tc r) :=
  after_of_writes_sub r1a V r1a_writes h

set_option maxHeartbeats 1000000 in
theorem r1a_layer (V : Valuation τ sig (Elt Ideal)) :
    after r1a V (Proc.devRef .tc main_v46) = layer (V (Proc.devRef .tc main_v29)) (V (Proc.devRef .tc main_v3)) (V (Proc.devRef .tc main_v6)) (V (Proc.devRef .tc main_v30)) (V (Proc.devRef .tc main_arg3)) := by
  dsimp only [r1a, ops', ops, List.take, List.drop]
  after_results_simp
  unfold layer col fcol wrap
  rfl

/-! ## The rectifier after layer 1 -/

abbrev r1b : List (HloOp τ sig (Elt Ideal)) := (ops'.drop 60).take 3
/-- The buffers this stretch writes. -/
abbrev r1b_W : List (Ref sig .tc) := [main_call1_cst, main_call1_v0, main_v47]
set_option maxHeartbeats 1000000 in
theorem r1b_writes : (r1b).Forall fun op => op.writes ⊆ ((r1b_W).map (Proc.devRef (τ := τ) .tc)).toFinset := by
  simp only [r1b, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem r1b_keep (V : Valuation τ sig (Elt Ideal)) (r : Ref sig .tc) (h : r ∉ r1b_W) :
    after r1b V (Proc.devRef .tc r) = V (Proc.devRef .tc r) :=
  after_of_writes_sub r1b V r1b_writes h

set_option maxHeartbeats 1000000 in
theorem r1b_relu (V : Valuation τ sig (Elt Ideal)) :
    after r1b V (Proc.devRef .tc main_v47) = relu (V (Proc.devRef .tc main_v46)) := by
  dsimp only [r1b, ops', ops, List.take, List.drop]
  after_results_simp
  unfold relu
  rfl

/-! ## The next dense product, one dot_general -/

abbrev rp1 : List (HloOp τ sig (Elt Ideal)) := (ops'.drop 63).take 1
/-- The buffers this stretch writes. -/
abbrev rp1_W : List (Ref sig .tc) := [main_v48]
set_option maxHeartbeats 1000000 in
theorem rp1_writes : (rp1).Forall fun op => op.writes ⊆ ((rp1_W).map (Proc.devRef (τ := τ) .tc)).toFinset := by
  simp only [rp1, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem rp1_keep (V : Valuation τ sig (Elt Ideal)) (r : Ref sig .tc) (h : r ∉ rp1_W) :
    after rp1 V (Proc.devRef .tc r) = V (Proc.devRef .tc r) :=
  after_of_writes_sub rp1 V rp1_writes h

set_option maxHeartbeats 1000000 in
theorem rp1_prod (V : Valuation τ sig (Elt Ideal)) :
    after rp1 V (Proc.devRef .tc main_v48) = Host.dotGeneral (F := Ideal) (φ₁ := .f32) (φ₂ := .f32) dot_S50000x256_S256x256_S50000x256_1_0_0_1_n_n none (V (Proc.devRef .tc main_v47)) (V (Proc.devRef .tc main_arg4)) := by
  dsimp only [rp1, ops', ops, List.take, List.drop]
  after_results_simp
  try rfl

end Cert.ReferenceIdeal.HostStages

end
-- ==== Proof.RHost2.lean ====
/-
  The reference program's host stretches from the second product to the third, included, read as the shared host arithmetic (HostSpec.lean). The program is one
  line of 105 host operations; a stretch is a run of consecutive operations of that line. Each lemma is stated for ANY
  contents `V` of the buffers when the stretch is entered and says what one buffer holds after it, as a closed function
  of what the stretch's input buffers held; a buffer the stretch does not write keeps its contents.
-/
import proofs.«112917_j66383014527488_1_alg».proof.Proof.RefCut
import proofs.«112917_j66383014527488_1_alg».proof.Proof.HostSpec
import Idealize.ShloMosaic.Lib.StableHlo.Run

set_option maxRecDepth 16384

noncomputable section

namespace Cert.ReferenceIdeal.HostStages

open Cert.ReferenceIdeal Cert.ReferenceIdeal.Gen Cert.ReferenceIdeal.ValueP Cert.KernelIdeal.HostSpec
open Idealize.ShloMosaic Idealize.ShloMosaic.TcCoe Idealize.ShloMosaic.StableHlo Idealize.SL.Sem

/-! ## Layer 2's aggregation over the edges -/

abbrev r2a : List (HloOp τ sig (Elt Ideal)) := (ops'.drop 64).take 19
/-- The buffers this stretch writes. -/
abbrev r2a_W : List (Ref sig .tc) := [main_v49, main_c_9, main_v50, main_v51, main_c_10, main_v52, main_v53, main_v54, main_v55, main_v56, main_v57, main_v58, main_cst_11, main_v59, main_v60, main_v61, main_v62, main_v63, main_v64]
set_option maxHeartbeats 1000000 in
theorem r2a_writes : (r2a).Forall fun op => op.writes ⊆ ((r2a_W).map (Proc.devRef (τ := τ) .tc)).toFinset := by
  simp only [r2a, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem r2a_keep (V : Valuation τ sig (Elt Ideal)) (r : Ref sig .tc) (h : r ∉ r2a_W) :
    after r2a V (Proc.devRef .tc r) = V (Proc.devRef .tc r) :=
  after_of_writes_sub r2a V r2a_writes h

set_option maxHeartbeats 1000000 in
theorem r2a_layer (V : Valuation τ sig (Elt Ideal)) :
    after r2a V (Proc.devRef .tc main_v64) = layer (V (Proc.devRef .tc main_v29)) (V (Proc.devRef .tc main_v3)) (V (Proc.devRef .tc main_v6)) (V (Proc.devRef .tc main_v48)) (V (Proc.devRef .tc main_arg5)) := by
  dsimp only [r2a, ops', ops, List.take, List.drop]
  after_results_simp
  unfold layer col fcol wrap
  rfl

/-! ## The rectifier after layer 2 -/

abbrev r2b : List (HloOp τ sig (Elt Ideal)) := (ops'.drop 83).take 3
/-- The buffers this stretch writes. -/
abbrev r2b_W : List (Ref sig .tc) := [main_call2_cst, main_call2_v0, main_v65]
set_option maxHeartbeats 1000000 in
theorem r2b_writes : (r2b).Forall fun op => op.writes ⊆ ((r2b_W).map (Proc.devRef (τ := τ) .tc)).toFinset := by
  simp only [r2b, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem r2b_keep (V : Valuation τ sig (Elt Ideal)) (r : Ref sig .tc) (h : r ∉ r2b_W) :
    after r2b V (Proc.devRef .tc r) = V (Proc.devRef .tc r) :=
  after_of_writes_sub r2b V r2b_writes h

set_option maxHeartbeats 1000000 in
theorem r2b_relu (V : Valuation τ sig (Elt Ideal)) :
    after r2b V (Proc.devRef .tc main_v65) = relu (V (Proc.devRef .tc main_v64)) := by
  dsimp only [r2b, ops', ops, List.take, List.drop]
  after_results_simp
  unfold relu
  rfl

/-! ## The next dense product, one dot_general -/

abbrev rp2 : List (HloOp τ sig (Elt Ideal)) := (ops'.drop 86).take 1
/-- The buffers this stretch writes. -/
abbrev rp2_W : List (Ref sig .tc) := [main_v66]
set_option maxHeartbeats 1000000 in
theorem rp2_writes : (rp2).Forall fun op => op.writes ⊆ ((rp2_W).map (Proc.devRef (τ := τ) .tc)).toFinset := by
  simp only [rp2, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem rp2_keep (V : Valuation τ sig (Elt Ideal)) (r : Ref sig .tc) (h : r ∉ rp2_W) :
    after rp2 V (Proc.devRef .tc r) = V (Proc.devRef .tc r) :=
  after_of_writes_sub rp2 V rp2_writes h

set_option maxHeartbeats 1000000 in
theorem rp2_prod (V : Valuation τ sig (Elt Ideal)) :
    after rp2 V (Proc.devRef .tc main_v66) = Host.dotGeneral (F := Ideal) (φ₁ := .f32) (φ₂ := .f32) dot_S50000x256_S256x1_S50000x1_1_0_0_1_n_n none (V (Proc.devRef .tc main_v65)) (V (Proc.devRef .tc main_arg6)) := by
  dsimp only [rp2, ops', ops, List.take, List.drop]
  after_results_simp
  try rfl

end Cert.ReferenceIdeal.HostStages

end
-- ==== Proof.RHost3.lean ====
/-
  The reference program's host stretches after the third product, read as the shared host arithmetic (HostSpec.lean). The program is one
  line of 105 host operations; a stretch is a run of consecutive operations of that line. Each lemma is stated for ANY
  contents `V` of the buffers when the stretch is entered and says what one buffer holds after it, as a closed function
  of what the stretch's input buffers held; a buffer the stretch does not write keeps its contents.
-/
import proofs.«112917_j66383014527488_1_alg».proof.Proof.RefCut
import proofs.«112917_j66383014527488_1_alg».proof.Proof.HostSpec
import Idealize.ShloMosaic.Lib.StableHlo.Run

set_option maxRecDepth 16384

noncomputable section

namespace Cert.ReferenceIdeal.HostStages

open Cert.ReferenceIdeal Cert.ReferenceIdeal.Gen Cert.ReferenceIdeal.ValueP Cert.KernelIdeal.HostSpec
open Idealize.ShloMosaic Idealize.ShloMosaic.TcCoe Idealize.ShloMosaic.StableHlo Idealize.SL.Sem

/-! ## The last layer's aggregation: the program's result -/

abbrev r3 : List (HloOp τ sig (Elt Ideal)) := ops'.drop 87
/-- The buffers this stretch writes. -/
abbrev r3_W : List (Ref sig .tc) := [main_v67, main_c_12, main_v68, main_v69, main_c_13, main_v70, main_v71, main_v72, main_v73, main_v74, main_v75, main_cst_14, main_v76, main_v77, main_v78, main_v79, main_v80, main_v81]
set_option maxHeartbeats 1000000 in
theorem r3_writes : (r3).Forall fun op => op.writes ⊆ ((r3_W).map (Proc.devRef (τ := τ) .tc)).toFinset := by
  simp only [r3, ops', ops, List.take, List.drop, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer the stretch does not write keeps its contents. -/
theorem r3_keep (V : Valuation τ sig (Elt Ideal)) (r : Ref sig .tc) (h : r ∉ r3_W) :
    after r3 V (Proc.devRef .tc r) = V (Proc.devRef .tc r) :=
  after_of_writes_sub r3 V r3_writes h

set_option maxHeartbeats 1000000 in
theorem r3_out (V : Valuation τ sig (Elt Ideal)) :
    after r3 V (Proc.devRef .tc main_v81) = out (V (Proc.devRef .tc main_v29)) (V (Proc.devRef .tc main_v3)) (V (Proc.devRef .tc main_v6)) (V (Proc.devRef .tc main_v66)) (V (Proc.devRef .tc main_arg7)) := by
  dsimp only [r3, ops', ops, List.take, List.drop]
  after_results_simp
  unfold out col fcol wrap
  rfl

end Cert.ReferenceIdeal.HostStages

end
-- ==== Proof.RChain.lean ====
/-
  The idealized reference's result as the same function `gcn` of its eight arguments.
  The reference is one line of 105 host operations; its run leaves the result buffer at the fold of that line over the
  launch contents. The line is cut into the stretches of RHost*.lean; level by level the buffers the rest of the line still
  reads are followed through: the arguments, the edges' endpoints and weights, and each layer's arrays. The three dense
  products are single `dot_general`s, each the finite sum `Σ_k a(r,k)·b(k,j)` entry by entry.
-/
import proofs.«112917_j66383014527488_1_alg».proof.Proof.RefCut
import proofs.«112917_j66383014527488_1_alg».proof.Proof.RHost0
import proofs.«112917_j66383014527488_1_alg».proof.Proof.RHost1
import proofs.«112917_j66383014527488_1_alg».proof.Proof.RHost2
import proofs.«112917_j66383014527488_1_alg».proof.Proof.RHost3
import proofs.«112917_j66383014527488_1_alg».proof.Proof.GcnSpec
import proofs.«112917_j66383014527488_1_alg».proof.Proof.LibPlainDot
import Idealize.ShloMosaic.Lib.Pipeline.Frame

set_option maxRecDepth 16384

noncomputable section

namespace Cert.ReferenceIdeal.Chain

open Cert.ReferenceIdeal Cert.ReferenceIdeal.Gen Cert.ReferenceIdeal.ValueP Cert.ReferenceIdeal.HostStages Cert.KernelIdeal.HostSpec
open Idealize.ShloMosaic Idealize.ShloMosaic.TcCoe Idealize.ShloMosaic.StableHlo Idealize.SL.Sem

variable (m : (ℓ : Loc nD τ sig) → Buf (Elt Ideal) ℓ) (c : Dev nD)

/-- Argument 0 as launched. -/
abbrev a0 : FVec Ideal S50000x256 .f32 := m ((c.tc : Thread nD τ).loc main_arg0)
/-- Argument 1 as launched. -/
abbrev a1 : IVec S2x800000 32 := m ((c.tc : Thread nD τ).loc main_arg1)
/-- Argument 2 as launched. -/
abbrev a2 : FVec Ideal S256x256 .f32 := m ((c.tc : Thread nD τ).loc main_arg2)
/-- Argument 3 as launched. -/
abbrev a3 : FVec Ideal S256 .f32 := m ((c.tc : Thread nD τ).loc main_arg3)
/-- Argument 4 as launched. -/
abbrev a4 : FVec Ideal S256x256 .f32 := m ((c.tc : Thread nD τ).loc main_arg4)
/-- Argument 5 as launched. -/
abbrev a5 : FVec Ideal S256 .f32 := m ((c.tc : Thread nD τ).loc main_arg5)
/-- Argument 6 as launched. -/
abbrev a6 : FVec Ideal S256x1 .f32 := m ((c.tc : Thread nD τ).loc main_arg6)
/-- Argument 7 as launched. -/
abbrev a7 : FVec Ideal S1 .f32 := m ((c.tc : Thread nD τ).loc main_arg7)

/-- The buffers at launch. -/
abbrev B0 : Valuation τ sig (Elt Ideal) := launchContents m c
abbrev B1a : Valuation τ sig (Elt Ideal) := after r0a (B0 m c)
abbrev B1 : Valuation τ sig (Elt Ideal) := after r0b (B1a m c)
abbrev B2 : Valuation τ sig (Elt Ideal) := after r0c (B1 m c)
abbrev B3 : Valuation τ sig (Elt Ideal) := after r0d (B2 m c)
abbrev B4 : Valuation τ sig (Elt Ideal) := after rp0 (B3 m c)
abbrev B5 : Valuation τ sig (Elt Ideal) := after r1a (B4 m c)
abbrev B6 : Valuation τ sig (Elt Ideal) := after r1b (B5 m c)
abbrev B8 : Valuation τ sig (Elt Ideal) := after rp1 (B6 m c)
abbrev B9 : Valuation τ sig (Elt Ideal) := after r2a (B8 m c)
abbrev B10 : Valuation τ sig (Elt Ideal) := after r2b (B9 m c)
abbrev B12 : Valuation τ sig (Elt Ideal) := after rp2 (B10 m c)
abbrev B13 : Valuation τ sig (Elt Ideal) := after r3 (B12 m c)

/-- The program's line of operations is the twelve stretches in a row. -/
theorem ops_cut : ops' = r0a ++ (r0b ++ (r0c ++ (r0d ++ (rp0 ++ (r1a ++ (r1b ++ (rp1 ++ (r2a ++ (r2b ++ (rp2 ++ r3)))))))))) := rfl

/-- So the fold through the whole line is the fold through the stretches in turn. -/
theorem fold_cut : after ops' (B0 m c) = B13 m c := by
  rw [ops_cut]
  simp only [after_append]

/-- The host's plain `dot_general` of a 50000 × 256 array by a 256 × 256 array is their product, entry by entry. -/
theorem dot256 (a : FVec Ideal S50000x256 .f32) (b : FVec Ideal S256x256 .f32) :
    Host.dotGeneral (F := Ideal) (φ₁ := .f32) (φ₂ := .f32) dot_S50000x256_S256x256_S50000x256_1_0_0_1_n_n none a b
      = Spec.prod (M := 50000) (K := 256) (N := 256) a b := by
  funext i
  simp only [Host.dotGeneral]
  exact PlainDot.dotGeneral_apply (M := 50000) (K := 256) (N := 256) _ _ a b i

/-- The same for a 256 × 1 right operand. -/
theorem dot1 (a : FVec Ideal S50000x256 .f32) (b : FVec Ideal S256x1 .f32) :
    Host.dotGeneral (F := Ideal) (φ₁ := .f32) (φ₂ := .f32) dot_S50000x256_S256x1_S50000x1_1_0_0_1_n_n none a b
      = Spec.prod (M := 50000) (K := 256) (N := 1) a b := by
  funext i
  simp only [Host.dotGeneral]
  exact PlainDot.dotGeneral_apply (M := 50000) (K := 256) (N := 1) _ _ a b i

/-! ### At launch -/

theorem M0_arg0 : B0 m c (Proc.devRef .tc main_arg0) = (a0 m c) := rfl
theorem M0_arg1 : B0 m c (Proc.devRef .tc main_arg1) = (a1 m c) := rfl
theorem M0_arg2 : B0 m c (Proc.devRef .tc main_arg2) = (a2 m c) := rfl
theorem M0_arg3 : B0 m c (Proc.devRef .tc main_arg3) = (a3 m c) := rfl
theorem M0_arg4 : B0 m c (Proc.devRef .tc main_arg4) = (a4 m c) := rfl
theorem M0_arg5 : B0 m c (Proc.devRef .tc main_arg5) = (a5 m c) := rfl
theorem M0_arg6 : B0 m c (Proc.devRef .tc main_arg6) = (a6 m c) := rfl
theorem M0_arg7 : B0 m c (Proc.devRef .tc main_arg7) = (a7 m c) := rfl

/-! ### After the edges' endpoints -/

theorem M1a_arg0 : B1a m c (Proc.devRef .tc main_arg0) = (a0 m c) := by
  exact (r0a_keep (B0 m c) main_arg0 (by decide)).trans (M0_arg0 m c)
theorem M1a_arg1 : B1a m c (Proc.devRef .tc main_arg1) = (a1 m c) := by
  exact (r0a_keep (B0 m c) main_arg1 (by decide)).trans (M0_arg1 m c)
theorem M1a_arg2 : B1a m c (Proc.devRef .tc main_arg2) = (a2 m c) := by
  exact (r0a_keep (B0 m c) main_arg2 (by decide)).trans (M0_arg2 m c)
theorem M1a_arg3 : B1a m c (Proc.devRef .tc main_arg3) = (a3 m c) := by
  exact (r0a_keep (B0 m c) main_arg3 (by decide)).trans (M0_arg3 m c)
theorem M1a_arg4 : B1a m c (Proc.devRef .tc main_arg4) = (a4 m c) := by
  exact (r0a_keep (B0 m c) main_arg4 (by decide)).trans (M0_arg4 m c)
theorem M1a_arg5 : B1a m c (Proc.devRef .tc main_arg5) = (a5 m c) := by
  exact (r0a_keep (B0 m c) main_arg5 (by decide)).trans (M0_arg5 m c)
theorem M1a_arg6 : B1a m c (Proc.devRef .tc main_arg6) = (a6 m c) := by
  exact (r0a_keep (B0 m c) main_arg6 (by decide)).trans (M0_arg6 m c)
theorem M1a_arg7 : B1a m c (Proc.devRef .tc main_arg7) = (a7 m c) := by
  exact (r0a_keep (B0 m c) main_arg7 (by decide)).trans (M0_arg7 m c)
theorem M1a_v3 : B1a m c (Proc.devRef .tc main_v3) = (src (a1 m c)) := by
  show after r0a (B0 m c) (Proc.devRef .tc main_v3) = _
  rw [r0a_src, M0_arg1 m c]
theorem M1a_v6 : B1a m c (Proc.devRef .tc main_v6) = (dst (a1 m c)) := by
  show after r0a (B0 m c) (Proc.devRef .tc main_v6) = _
  rw [r0a_dst, M0_arg1 m c]

/-! ### After the degrees -/

theorem M1_arg0 : B1 m c (Proc.devRef .tc main_arg0) = (a0 m c) := by
  exact (r0b_keep (B1a m c) main_arg0 (by decide)).trans (M1a_arg0 m c)
theorem M1_arg1 : B1 m c (Proc.devRef .tc main_arg1) = (a1 m c) := by
  exact (r0b_keep (B1a m c) main_arg1 (by decide)).trans (M1a_arg1 m c)
theorem M1_arg2 : B1 m c (Proc.devRef .tc main_arg2) = (a2 m c) := by
  exact (r0b_keep (B1a m c) main_arg2 (by decide)).trans (M1a_arg2 m c)
theorem M1_arg3 : B1 m c (Proc.devRef .tc main_arg3) = (a3 m c) := by
  exact (r0b_keep (B1a m c) main_arg3 (by decide)).trans (M1a_arg3 m c)
theorem M1_arg4 : B1 m c (Proc.devRef .tc main_arg4) = (a4 m c) := by
  exact (r0b_keep (B1a m c) main_arg4 (by decide)).trans (M1a_arg4 m c)
theorem M1_arg5 : B1 m c (Proc.devRef .tc main_arg5) = (a5 m c) := by
  exact (r0b_keep (B1a m c) main_arg5 (by decide)).trans (M1a_arg5 m c)
theorem M1_arg6 : B1 m c (Proc.devRef .tc main_arg6) = (a6 m c) := by
  exact (r0b_keep (B1a m c) main_arg6 (by decide)).trans (M1a_arg6 m c)
theorem M1_arg7 : B1 m c (Proc.devRef .tc main_arg7) = (a7 m c) := by
  exact (r0b_keep (B1a m c) main_arg7 (by decide)).trans (M1a_arg7 m c)
theorem M1_v3 : B1 m c (Proc.devRef .tc main_v3) = (src (a1 m c)) := by
  exact (r0b_keep (B1a m c) main_v3 (by decide)).trans (M1a_v3 m c)
theorem M1_v6 : B1 m c (Proc.devRef .tc main_v6) = (dst (a1 m c)) := by
  exact (r0b_keep (B1a m c) main_v6 (by decide)).trans (M1a_v6 m c)
theorem M1_v12 : B1 m c (Proc.devRef .tc main_v12) = (pos (dst (a1 m c))) := by
  show after r0b (B1a m c) (Proc.devRef .tc main_v12) = _
  rw [r0b_pos, M1a_v6 m c]
theorem M1_v13 : B1 m c (Proc.devRef .tc main_v13) = (rs (dst (a1 m c))) := by
  show after r0b (B1a m c) (Proc.devRef .tc main_v13) = _
  rw [r0b_rs, M1a_v6 m c]
theorem M1_cst_2 : B1 m c (Proc.devRef .tc main_cst_2) = (constant (F := Ideal) S_ .f32 0x00000000#32) := by
  show after r0b (B1a m c) (Proc.devRef .tc main_cst_2) = _
  rw [r0b_z]

/-! ### After the nodes' factors -/

theorem M2_arg0 : B2 m c (Proc.devRef .tc main_arg0) = (a0 m c) := by
  exact (r0c_keep (B1 m c) main_arg0 (by decide)).trans (M1_arg0 m c)
theorem M2_arg1 : B2 m c (Proc.devRef .tc main_arg1) = (a1 m c) := by
  exact (r0c_keep (B1 m c) main_arg1 (by decide)).trans (M1_arg1 m c)
theorem M2_arg2 : B2 m c (Proc.devRef .tc main_arg2) = (a2 m c) := by
  exact (r0c_keep (B1 m c) main_arg2 (by decide)).trans (M1_arg2 m c)
theorem M2_arg3 : B2 m c (Proc.devRef .tc main_arg3) = (a3 m c) := by
  exact (r0c_keep (B1 m c) main_arg3 (by decide)).trans (M1_arg3 m c)
theorem M2_arg4 : B2 m c (Proc.devRef .tc main_arg4) = (a4 m c) := by
  exact (r0c_keep (B1 m c) main_arg4 (by decide)).trans (M1_arg4 m c)
theorem M2_arg5 : B2 m c (Proc.devRef .tc main_arg5) = (a5 m c) := by
  exact (r0c_keep (B1 m c) main_arg5 (by decide)).trans (M1_arg5 m c)
theorem M2_arg6 : B2 m c (Proc.devRef .tc main_arg6) = (a6 m c) := by
  exact (r0c_keep (B1 m c) main_arg6 (by decide)).trans (M1_arg6 m c)
theorem M2_arg7 : B2 m c (Proc.devRef .tc main_arg7) = (a7 m c) := by
  exact (r0c_keep (B1 m c) main_arg7 (by decide)).trans (M1_arg7 m c)
theorem M2_v3 : B2 m c (Proc.devRef .tc main_v3) = (src (a1 m c)) := by
  exact (r0c_keep (B1 m c) main_v3 (by decide)).trans (M1_v3 m c)
theorem M2_v6 : B2 m c (Proc.devRef .tc main_v6) = (dst (a1 m c)) := by
  exact (r0c_keep (B1 m c) main_v6 (by decide)).trans (M1_v6 m c)
theorem M2_v14 : B2 m c (Proc.devRef .tc main_v14) = (dinv (dst (a1 m c))) := by
  show after r0c (B1 m c) (Proc.devRef .tc main_v14) = _
  rw [r0c_dinv, M1_v12 m c, M1_v13 m c, M1_cst_2 m c]
  rfl

/-! ### After the edges' weights -/

theorem M3_arg0 : B3 m c (Proc.devRef .tc main_arg0) = (a0 m c) := by
  exact (r0d_keep (B2 m c) main_arg0 (by decide)).trans (M2_arg0 m c)
theorem M3_arg1 : B3 m c (Proc.devRef .tc main_arg1) = (a1 m c) := by
  exact (r0d_keep (B2 m c) main_arg1 (by decide)).trans (M2_arg1 m c)
theorem M3_arg2 : B3 m c (Proc.devRef .tc main_arg2) = (a2 m c) := by
  exact (r0d_keep (B2 m c) main_arg2 (by decide)).trans (M2_arg2 m c)
theorem M3_arg3 : B3 m c (Proc.devRef .tc main_arg3) = (a3 m c) := by
  exact (r0d_keep (B2 m c) main_arg3 (by decide)).trans (M2_arg3 m c)
theorem M3_arg4 : B3 m c (Proc.devRef .tc main_arg4) = (a4 m c) := by
  exact (r0d_keep (B2 m c) main_arg4 (by decide)).trans (M2_arg4 m c)
theorem M3_arg5 : B3 m c (Proc.devRef .tc main_arg5) = (a5 m c) := by
  exact (r0d_keep (B2 m c) main_arg5 (by decide)).trans (M2_arg5 m c)
theorem M3_arg6 : B3 m c (Proc.devRef .tc main_arg6) = (a6 m c) := by
  exact (r0d_keep (B2 m c) main_arg6 (by decide)).trans (M2_arg6 m c)
theorem M3_arg7 : B3 m c (Proc.devRef .tc main_arg7) = (a7 m c) := by
  exact (r0d_keep (B2 m c) main_arg7 (by decide)).trans (M2_arg7 m c)
theorem M3_v3 : B3 m c (Proc.devRef .tc main_v3) = (src (a1 m c)) := by
  exact (r0d_keep (B2 m c) main_v3 (by decide)).trans (M2_v3 m c)
theorem M3_v6 : B3 m c (Proc.devRef .tc main_v6) = (dst (a1 m c)) := by
  exact (r0d_keep (B2 m c) main_v6 (by decide)).trans (M2_v6 m c)
theorem M3_v29 : B3 m c (Proc.devRef .tc main_v29) = (norm (src (a1 m c)) (dst (a1 m c))) := by
  show after r0d (B2 m c) (Proc.devRef .tc main_v29) = _
  rw [r0d_edge, M2_v14 m c, M2_v3 m c, M2_v6 m c]
  rfl

/-! ### After the first product -/

theorem M4_arg0 : B4 m c (Proc.devRef .tc main_arg0) = (a0 m c) := by
  exact (rp0_keep (B3 m c) main_arg0 (by decide)).trans (M3_arg0 m c)
theorem M4_arg1 : B4 m c (Proc.devRef .tc main_arg1) = (a1 m c) := by
  exact (rp0_keep (B3 m c) main_arg1 (by decide)).trans (M3_arg1 m c)
theorem M4_arg2 : B4 m c (Proc.devRef .tc main_arg2) = (a2 m c) := by
  exact (rp0_keep (B3 m c) main_arg2 (by decide)).trans (M3_arg2 m c)
theorem M4_arg3 : B4 m c (Proc.devRef .tc main_arg3) = (a3 m c) := by
  exact (rp0_keep (B3 m c) main_arg3 (by decide)).trans (M3_arg3 m c)
theorem M4_arg4 : B4 m c (Proc.devRef .tc main_arg4) = (a4 m c) := by
  exact (rp0_keep (B3 m c) main_arg4 (by decide)).trans (M3_arg4 m c)
theorem M4_arg5 : B4 m c (Proc.devRef .tc main_arg5) = (a5 m c) := by
  exact (rp0_keep (B3 m c) main_arg5 (by decide)).trans (M3_arg5 m c)
theorem M4_arg6 : B4 m c (Proc.devRef .tc main_arg6) = (a6 m c) := by
  exact (rp0_keep (B3 m c) main_arg6 (by decide)).trans (M3_arg6 m c)
theorem M4_arg7 : B4 m c (Proc.devRef .tc main_arg7) = (a7 m c) := by
  exact (rp0_keep (B3 m c) main_arg7 (by decide)).trans (M3_arg7 m c)
theorem M4_v3 : B4 m c (Proc.devRef .tc main_v3) = (src (a1 m c)) := by
  exact (rp0_keep (B3 m c) main_v3 (by decide)).trans (M3_v3 m c)
theorem M4_v6 : B4 m c (Proc.devRef .tc main_v6) = (dst (a1 m c)) := by
  exact (rp0_keep (B3 m c) main_v6 (by decide)).trans (M3_v6 m c)
theorem M4_v29 : B4 m c (Proc.devRef .tc main_v29) = (norm (src (a1 m c)) (dst (a1 m c))) := by
  exact (rp0_keep (B3 m c) main_v29 (by decide)).trans (M3_v29 m c)
theorem M4_v30 : B4 m c (Proc.devRef .tc main_v30) = (Spec.prod (M := 50000) (K := 256) (N := 256) (a0 m c) (a2 m c)) := by
  show after rp0 (B3 m c) (Proc.devRef .tc main_v30) = _
  rw [rp0_prod, M3_arg0 m c, M3_arg2 m c]
  exact dot256 _ _

/-! ### After layer 1's aggregation -/

theorem M5_arg0 : B5 m c (Proc.devRef .tc main_arg0) = (a0 m c) := by
  exact (r1a_keep (B4 m c) main_arg0 (by decide)).trans (M4_arg0 m c)
theorem M5_arg1 : B5 m c (Proc.devRef .tc main_arg1) = (a1 m c) := by
  exact (r1a_keep (B4 m c) main_arg1 (by decide)).trans (M4_arg1 m c)
theorem M5_arg2 : B5 m c (Proc.devRef .tc main_arg2) = (a2 m c) := by
  exact (r1a_keep (B4 m c) main_arg2 (by decide)).trans (M4_arg2 m c)
theorem M5_arg3 : B5 m c (Proc.devRef .tc main_arg3) = (a3 m c) := by
  exact (r1a_keep (B4 m c) main_arg3 (by decide)).trans (M4_arg3 m c)
theorem M5_arg4 : B5 m c (Proc.devRef .tc main_arg4) = (a4 m c) := by
  exact (r1a_keep (B4 m c) main_arg4 (by decide)).trans (M4_arg4 m c)
theorem M5_arg5 : B5 m c (Proc.devRef .tc main_arg5) = (a5 m c) := by
  exact (r1a_keep (B4 m c) main_arg5 (by decide)).trans (M4_arg5 m c)
theorem M5_arg6 : B5 m c (Proc.devRef .tc main_arg6) = (a6 m c) := by
  exact (r1a_keep (B4 m c) main_arg6 (by decide)).trans (M4_arg6 m c)
theorem M5_arg7 : B5 m c (Proc.devRef .tc main_arg7) = (a7 m c) := by
  exact (r1a_keep (B4 m c) main_arg7 (by decide)).trans (M4_arg7 m c)
theorem M5_v3 : B5 m c (Proc.devRef .tc main_v3) = (src (a1 m c)) := by
  exact (r1a_keep (B4 m c) main_v3 (by decide)).trans (M4_v3 m c)
theorem M5_v6 : B5 m c (Proc.devRef .tc main_v6) = (dst (a1 m c)) := by
  exact (r1a_keep (B4 m c) main_v6 (by decide)).trans (M4_v6 m c)
theorem M5_v29 : B5 m c (Proc.devRef .tc main_v29) = (norm (src (a1 m c)) (dst (a1 m c))) := by
  exact (r1a_keep (B4 m c) main_v29 (by decide)).trans (M4_v29 m c)
theorem M5_v46 : B5 m c (Proc.devRef .tc main_v46) = (layer (norm (src (a1 m c)) (dst (a1 m c))) (src (a1 m c)) (dst (a1 m c)) (Spec.prod (M := 50000) (K := 256) (N := 256) (a0 m c) (a2 m c)) (a3 m c)) := by
  show after r1a (B4 m c) (Proc.devRef .tc main_v46) = _
  rw [r1a_layer, M4_v29 m c, M4_v3 m c, M4_v6 m c, M4_v30 m c, M4_arg3 m c]

/-! ### After the rectifier -/

theorem M6_arg0 : B6 m c (Proc.devRef .tc main_arg0) = (a0 m c) := by
  exact (r1b_keep (B5 m c) main_arg0 (by decide)).trans (M5_arg0 m c)
theorem M6_arg1 : B6 m c (Proc.devRef .tc main_arg1) = (a1 m c) := by
  exact (r1b_keep (B5 m c) main_arg1 (by decide)).trans (M5_arg1 m c)
theorem M6_arg2 : B6 m c (Proc.devRef .tc main_arg2) = (a2 m c) := by
  exact (r1b_keep (B5 m c) main_arg2 (by decide)).trans (M5_arg2 m c)
theorem M6_arg3 : B6 m c (Proc.devRef .tc main_arg3) = (a3 m c) := by
  exact (r1b_keep (B5 m c) main_arg3 (by decide)).trans (M5_arg3 m c)
theorem M6_arg4 : B6 m c (Proc.devRef .tc main_arg4) = (a4 m c) := by
  exact (r1b_keep (B5 m c) main_arg4 (by decide)).trans (M5_arg4 m c)
theorem M6_arg5 : B6 m c (Proc.devRef .tc main_arg5) = (a5 m c) := by
  exact (r1b_keep (B5 m c) main_arg5 (by decide)).trans (M5_arg5 m c)
theorem M6_arg6 : B6 m c (Proc.devRef .tc main_arg6) = (a6 m c) := by
  exact (r1b_keep (B5 m c) main_arg6 (by decide)).trans (M5_arg6 m c)
theorem M6_arg7 : B6 m c (Proc.devRef .tc main_arg7) = (a7 m c) := by
  exact (r1b_keep (B5 m c) main_arg7 (by decide)).trans (M5_arg7 m c)
theorem M6_v3 : B6 m c (Proc.devRef .tc main_v3) = (src (a1 m c)) := by
  exact (r1b_keep (B5 m c) main_v3 (by decide)).trans (M5_v3 m c)
theorem M6_v6 : B6 m c (Proc.devRef .tc main_v6) = (dst (a1 m c)) := by
  exact (r1b_keep (B5 m c) main_v6 (by decide)).trans (M5_v6 m c)
theorem M6_v29 : B6 m c (Proc.devRef .tc main_v29) = (norm (src (a1 m c)) (dst (a1 m c))) := by
  exact (r1b_keep (B5 m c) main_v29 (by decide)).trans (M5_v29 m c)
theorem M6_v47 : B6 m c (Proc.devRef .tc main_v47) = (relu (layer (norm (src (a1 m c)) (dst (a1 m c))) (src (a1 m c)) (dst (a1 m c)) (Spec.prod (M := 50000) (K := 256) (N := 256) (a0 m c) (a2 m c)) (a3 m c))) := by
  show after r1b (B5 m c) (Proc.devRef .tc main_v47) = _
  rw [r1b_relu, M5_v46 m c]

/-! ### After the second product -/

theorem M8_arg0 : B8 m c (Proc.devRef .tc main_arg0) = (a0 m c) := by
  exact (rp1_keep (B6 m c) main_arg0 (by decide)).trans (M6_arg0 m c)
theorem M8_arg1 : B8 m c (Proc.devRef .tc main_arg1) = (a1 m c) := by
  exact (rp1_keep (B6 m c) main_arg1 (by decide)).trans (M6_arg1 m c)
theorem M8_arg2 : B8 m c (Proc.devRef .tc main_arg2) = (a2 m c) := by
  exact (rp1_keep (B6 m c) main_arg2 (by decide)).trans (M6_arg2 m c)
theorem M8_arg3 : B8 m c (Proc.devRef .tc main_arg3) = (a3 m c) := by
  exact (rp1_keep (B6 m c) main_arg3 (by decide)).trans (M6_arg3 m c)
theorem M8_arg4 : B8 m c (Proc.devRef .tc main_arg4) = (a4 m c) := by
  exact (rp1_keep (B6 m c) main_arg4 (by decide)).trans (M6_arg4 m c)
theorem M8_arg5 : B8 m c (Proc.devRef .tc main_arg5) = (a5 m c) := by
  exact (rp1_keep (B6 m c) main_arg5 (by decide)).trans (M6_arg5 m c)
theorem M8_arg6 : B8 m c (Proc.devRef .tc main_arg6) = (a6 m c) := by
  exact (rp1_keep (B6 m c) main_arg6 (by decide)).trans (M6_arg6 m c)
theorem M8_arg7 : B8 m c (Proc.devRef .tc main_arg7) = (a7 m c) := by
  exact (rp1_keep (B6 m c) main_arg7 (by decide)).trans (M6_arg7 m c)
theorem M8_v3 : B8 m c (Proc.devRef .tc main_v3) = (src (a1 m c)) := by
  exact (rp1_keep (B6 m c) main_v3 (by decide)).trans (M6_v3 m c)
theorem M8_v6 : B8 m c (Proc.devRef .tc main_v6) = (dst (a1 m c)) := by
  exact (rp1_keep (B6 m c) main_v6 (by decide)).trans (M6_v6 m c)
theorem M8_v29 : B8 m c (Proc.devRef .tc main_v29) = (norm (src (a1 m c)) (dst (a1 m c))) := by
  exact (rp1_keep (B6 m c) main_v29 (by decide)).trans (M6_v29 m c)
theorem M8_v48 : B8 m c (Proc.devRef .tc main_v48) = (Spec.prod (M := 50000) (K := 256) (N := 256) (relu (layer (norm (src (a1 m c)) (dst (a1 m c))) (src (a1 m c)) (dst (a1 m c)) (Spec.prod (M := 50000) (K := 256) (N := 256) (a0 m c) (a2 m c)) (a3 m c))) (a4 m c)) := by
  show after rp1 (B6 m c) (Proc.devRef .tc main_v48) = _
  rw [rp1_prod, M6_v47 m c, M6_arg4 m c]
  exact dot256 _ _

/-! ### After layer 2's aggregation -/

theorem M9_arg0 : B9 m c (Proc.devRef .tc main_arg0) = (a0 m c) := by
  exact (r2a_keep (B8 m c) main_arg0 (by decide)).trans (M8_arg0 m c)
theorem M9_arg1 : B9 m c (Proc.devRef .tc main_arg1) = (a1 m c) := by
  exact (r2a_keep (B8 m c) main_arg1 (by decide)).trans (M8_arg1 m c)
theorem M9_arg2 : B9 m c (Proc.devRef .tc main_arg2) = (a2 m c) := by
  exact (r2a_keep (B8 m c) main_arg2 (by decide)).trans (M8_arg2 m c)
theorem M9_arg3 : B9 m c (Proc.devRef .tc main_arg3) = (a3 m c) := by
  exact (r2a_keep (B8 m c) main_arg3 (by decide)).trans (M8_arg3 m c)
theorem M9_arg4 : B9 m c (Proc.devRef .tc main_arg4) = (a4 m c) := by
  exact (r2a_keep (B8 m c) main_arg4 (by decide)).trans (M8_arg4 m c)
theorem M9_arg5 : B9 m c (Proc.devRef .tc main_arg5) = (a5 m c) := by
  exact (r2a_keep (B8 m c) main_arg5 (by decide)).trans (M8_arg5 m c)
theorem M9_arg6 : B9 m c (Proc.devRef .tc main_arg6) = (a6 m c) := by
  exact (r2a_keep (B8 m c) main_arg6 (by decide)).trans (M8_arg6 m c)
theorem M9_arg7 : B9 m c (Proc.devRef .tc main_arg7) = (a7 m c) := by
  exact (r2a_keep (B8 m c) main_arg7 (by decide)).trans (M8_arg7 m c)
theorem M9_v3 : B9 m c (Proc.devRef .tc main_v3) = (src (a1 m c)) := by
  exact (r2a_keep (B8 m c) main_v3 (by decide)).trans (M8_v3 m c)
theorem M9_v6 : B9 m c (Proc.devRef .tc main_v6) = (dst (a1 m c)) := by
  exact (r2a_keep (B8 m c) main_v6 (by decide)).trans (M8_v6 m c)
theorem M9_v29 : B9 m c (Proc.devRef .tc main_v29) = (norm (src (a1 m c)) (dst (a1 m c))) := by
  exact (r2a_keep (B8 m c) main_v29 (by decide)).trans (M8_v29 m c)
theorem M9_v64 : B9 m c (Proc.devRef .tc main_v64) = (layer (norm (src (a1 m c)) (dst (a1 m c))) (src (a1 m c)) (dst (a1 m c)) (Spec.prod (M := 50000) (K := 256) (N := 256) (relu (layer (norm (src (a1 m c)) (dst (a1 m c))) (src (a1 m c)) (dst (a1 m c)) (Spec.prod (M := 50000) (K := 256) (N := 256) (a0 m c) (a2 m c)) (a3 m c))) (a4 m c)) (a5 m c)) := by
  show after r2a (B8 m c) (Proc.devRef .tc main_v64) = _
  rw [r2a_layer, M8_v29 m c, M8_v3 m c, M8_v6 m c, M8_v48 m c, M8_arg5 m c]

/-! ### After the rectifier -/

theorem M10_arg0 : B10 m c (Proc.devRef .tc main_arg0) = (a0 m c) := by
  exact (r2b_keep (B9 m c) main_arg0 (by decide)).trans (M9_arg0 m c)
theorem M10_arg1 : B10 m c (Proc.devRef .tc main_arg1) = (a1 m c) := by
  exact (r2b_keep (B9 m c) main_arg1 (by decide)).trans (M9_arg1 m c)
theorem M10_arg2 : B10 m c (Proc.devRef .tc main_arg2) = (a2 m c) := by
  exact (r2b_keep (B9 m c) main_arg2 (by decide)).trans (M9_arg2 m c)
theorem M10_arg3 : B10 m c (Proc.devRef .tc main_arg3) = (a3 m c) := by
  exact (r2b_keep (B9 m c) main_arg3 (by decide)).trans (M9_arg3 m c)
theorem M10_arg4 : B10 m c (Proc.devRef .tc main_arg4) = (a4 m c) := by
  exact (r2b_keep (B9 m c) main_arg4 (by decide)).trans (M9_arg4 m c)
theorem M10_arg5 : B10 m c (Proc.devRef .tc main_arg5) = (a5 m c) := by
  exact (r2b_keep (B9 m c) main_arg5 (by decide)).trans (M9_arg5 m c)
theorem M10_arg6 : B10 m c (Proc.devRef .tc main_arg6) = (a6 m c) := by
  exact (r2b_keep (B9 m c) main_arg6 (by decide)).trans (M9_arg6 m c)
theorem M10_arg7 : B10 m c (Proc.devRef .tc main_arg7) = (a7 m c) := by
  exact (r2b_keep (B9 m c) main_arg7 (by decide)).trans (M9_arg7 m c)
theorem M10_v3 : B10 m c (Proc.devRef .tc main_v3) = (src (a1 m c)) := by
  exact (r2b_keep (B9 m c) main_v3 (by decide)).trans (M9_v3 m c)
theorem M10_v6 : B10 m c (Proc.devRef .tc main_v6) = (dst (a1 m c)) := by
  exact (r2b_keep (B9 m c) main_v6 (by decide)).trans (M9_v6 m c)
theorem M10_v29 : B10 m c (Proc.devRef .tc main_v29) = (norm (src (a1 m c)) (dst (a1 m c))) := by
  exact (r2b_keep (B9 m c) main_v29 (by decide)).trans (M9_v29 m c)
theorem M10_v65 : B10 m c (Proc.devRef .tc main_v65) = (relu (layer (norm (src (a1 m c)) (dst (a1 m c))) (src (a1 m c)) (dst (a1 m c)) (Spec.prod (M := 50000) (K := 256) (N := 256) (relu (layer (norm (src (a1 m c)) (dst (a1 m c))) (src (a1 m c)) (dst (a1 m c)) (Spec.prod (M := 50000) (K := 256) (N := 256) (a0 m c) (a2 m c)) (a3 m c))) (a4 m c)) (a5 m c))) := by
  show after r2b (B9 m c) (Proc.devRef .tc main_v65) = _
  rw [r2b_relu, M9_v64 m c]

/-! ### After the third product -/

theorem M12_arg0 : B12 m c (Proc.devRef .tc main_arg0) = (a0 m c) := by
  exact (rp2_keep (B10 m c) main_arg0 (by decide)).trans (M10_arg0 m c)
theorem M12_arg1 : B12 m c (Proc.devRef .tc main_arg1) = (a1 m c) := by
  exact (rp2_keep (B10 m c) main_arg1 (by decide)).trans (M10_arg1 m c)
theorem M12_arg2 : B12 m c (Proc.devRef .tc main_arg2) = (a2 m c) := by
  exact (rp2_keep (B10 m c) main_arg2 (by decide)).trans (M10_arg2 m c)
theorem M12_arg3 : B12 m c (Proc.devRef .tc main_arg3) = (a3 m c) := by
  exact (rp2_keep (B10 m c) main_arg3 (by decide)).trans (M10_arg3 m c)
theorem M12_arg4 : B12 m c (Proc.devRef .tc main_arg4) = (a4 m c) := by
  exact (rp2_keep (B10 m c) main_arg4 (by decide)).trans (M10_arg4 m c)
theorem M12_arg5 : B12 m c (Proc.devRef .tc main_arg5) = (a5 m c) := by
  exact (rp2_keep (B10 m c) main_arg5 (by decide)).trans (M10_arg5 m c)
theorem M12_arg6 : B12 m c (Proc.devRef .tc main_arg6) = (a6 m c) := by
  exact (rp2_keep (B10 m c) main_arg6 (by decide)).trans (M10_arg6 m c)
theorem M12_arg7 : B12 m c (Proc.devRef .tc main_arg7) = (a7 m c) := by
  exact (rp2_keep (B10 m c) main_arg7 (by decide)).trans (M10_arg7 m c)
theorem M12_v3 : B12 m c (Proc.devRef .tc main_v3) = (src (a1 m c)) := by
  exact (rp2_keep (B10 m c) main_v3 (by decide)).trans (M10_v3 m c)
theorem M12_v6 : B12 m c (Proc.devRef .tc main_v6) = (dst (a1 m c)) := by
  exact (rp2_keep (B10 m c) main_v6 (by decide)).trans (M10_v6 m c)
theorem M12_v29 : B12 m c (Proc.devRef .tc main_v29) = (norm (src (a1 m c)) (dst (a1 m c))) := by
  exact (rp2_keep (B10 m c) main_v29 (by decide)).trans (M10_v29 m c)
theorem M12_v66 : B12 m c (Proc.devRef .tc main_v66) = (Spec.prod (M := 50000) (K := 256) (N := 1) (relu (layer (norm (src (a1 m c)) (dst (a1 m c))) (src (a1 m c)) (dst (a1 m c)) (Spec.prod (M := 50000) (K := 256) (N := 256) (relu (layer (norm (src (a1 m c)) (dst (a1 m c))) (src (a1 m c)) (dst (a1 m c)) (Spec.prod (M := 50000) (K := 256) (N := 256) (a0 m c) (a2 m c)) (a3 m c))) (a4 m c)) (a5 m c))) (a6 m c)) := by
  show after rp2 (B10 m c) (Proc.devRef .tc main_v66) = _
  rw [rp2_prod, M10_v65 m c, M10_arg6 m c]
  exact dot1 _ _

/-! ### At the return -/

theorem M13_v81 : B13 m c (Proc.devRef .tc main_v81) = (out (norm (src (a1 m c)) (dst (a1 m c))) (src (a1 m c)) (dst (a1 m c)) (Spec.prod (M := 50000) (K := 256) (N := 1) (relu (layer (norm (src (a1 m c)) (dst (a1 m c))) (src (a1 m c)) (dst (a1 m c)) (Spec.prod (M := 50000) (K := 256) (N := 256) (relu (layer (norm (src (a1 m c)) (dst (a1 m c))) (src (a1 m c)) (dst (a1 m c)) (Spec.prod (M := 50000) (K := 256) (N := 256) (a0 m c) (a2 m c)) (a3 m c))) (a4 m c)) (a5 m c))) (a6 m c)) (a7 m c)) := by
  show after r3 (B12 m c) (Proc.devRef .tc main_v81) = _
  rw [r3_out, M12_v29 m c, M12_v3 m c, M12_v6 m c, M12_v66 m c, M12_arg7 m c]

/-- THE REFERENCE'S RESULT: the fold of the whole line at the result buffer is `gcn` of the arguments as launched. -/
theorem ref_value : after (ops (F := Ideal)) (launchContents m c) (Proc.devRef .tc main_v81)
    = gcn (a0 m c) (a1 m c) (a2 m c) (a3 m c) (a4 m c) (a5 m c) (a6 m c) (a7 m c) :=
  (congrFun (fold_cut m c) (Proc.devRef .tc main_v81)).trans (M13_v81 m c)

end Cert.ReferenceIdeal.Chain

end
-- ==== Proof.lean ====
/-
  The proof of `Cert.Claim` for a three-layer graph convolution network: a kernel whose three dense products `h · W` are
  Pallas matrix multiplications of operands rounded to bf16, tiled 2000 rows at a time over a grid of 25 points, against a
  reference whose products are single `dot_general`s; everything else (the edges' endpoints and weights, the gather,
  scale and scatter-add of each layer, the bias, the rectifiers) is the same host arithmetic in both.
  At the extended reals rounding to bf16 is the identity and a tiled product into a zero accumulator is the whole product
  `Σ_k h(r,k)·W(k,j)` entry by entry, as is the host's `dot_general`; a finite sum of extended reals needs no order, so no
  finiteness of the inputs is used. Both programs' results are therefore ONE function `gcn` of the eight arguments
  (GcnSpec.lean): the kernel's by KChain.lean over the run of KernelRun.lean, the reference's by RChain.lean over its run.
  The frames are the generated ones (the reference's is its run with the result dropped); the ideal pass rewrote
  nothing, so `preserves` is `True`.
-/
import proofs.«112917_j66383014527488_1_alg».proof.Defs
import proofs.«112917_j66383014527488_1_alg».proof.Proof.Gen.Kernel
import proofs.«112917_j66383014527488_1_alg».proof.Proof.Gen.Kernel.Skeleton
import proofs.«112917_j66383014527488_1_alg».proof.Proof.Gen.Kernel.Launch
import proofs.«112917_j66383014527488_1_alg».proof.Proof.Gen.Kernel.Points
import proofs.«112917_j66383014527488_1_alg».proof.Proof.Gen.Kernel.Frame
import proofs.«112917_j66383014527488_1_alg».proof.Proof.Gen.KernelIdeal
import proofs.«112917_j66383014527488_1_alg».proof.Proof.Gen.KernelIdeal.Skeleton
import proofs.«112917_j66383014527488_1_alg».proof.Proof.Gen.KernelIdeal.Launch
import proofs.«112917_j66383014527488_1_alg».proof.Proof.Gen.KernelIdeal.Points
import proofs.«112917_j66383014527488_1_alg».proof.Proof.Gen.KernelIdeal.Frame
import proofs.«112917_j66383014527488_1_alg».proof.Proof.Gen.ReferenceIdeal
import proofs.«112917_j66383014527488_1_alg».proof.Proof.Gen.Pre_finite_inputs
import proofs.«112917_j66383014527488_1_alg».proof.Proof.KernelRun
import proofs.«112917_j66383014527488_1_alg».proof.Proof.KChain
import proofs.«112917_j66383014527488_1_alg».proof.Proof.RefRun
import proofs.«112917_j66383014527488_1_alg».proof.Proof.RChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- Both runs end with the result buffer at `gcn` of the arguments, which agree. -/
theorem algebraic : Cert.algebraic_KernelIdeal_ReferenceIdeal := by
  intro m ρ m' ρ' _ hagree
  refine ⟨fun c => Cert.KernelIdeal.HostSpec.gcn (Cert.KernelIdeal.Chain.a0 m c) (Cert.KernelIdeal.Chain.a1 m c)
      (Cert.KernelIdeal.Chain.a2 m c) (Cert.KernelIdeal.Chain.a3 m c) (Cert.KernelIdeal.Chain.a4 m c)
      (Cert.KernelIdeal.Chain.a5 m c) (Cert.KernelIdeal.Chain.a6 m c) (Cert.KernelIdeal.Chain.a7 m c), ?_, ?_⟩
  · exact (θ_run Cert.KernelIdeal.defs _ _).mono
      (fun r h c => ⟨(h c).1.trans (Cert.KernelIdeal.Chain.kernel_value m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    have e0 : Cert.ReferenceIdeal.Chain.a0 m' c = Cert.KernelIdeal.Chain.a0 m c := h0
    have e1 : Cert.ReferenceIdeal.Chain.a1 m' c = Cert.KernelIdeal.Chain.a1 m c := h1
    have e2 : Cert.ReferenceIdeal.Chain.a2 m' c = Cert.KernelIdeal.Chain.a2 m c := h2
    have e3 : Cert.ReferenceIdeal.Chain.a3 m' c = Cert.KernelIdeal.Chain.a3 m c := h3
    have e4 : Cert.ReferenceIdeal.Chain.a4 m' c = Cert.KernelIdeal.Chain.a4 m c := h4
    have e5 : Cert.ReferenceIdeal.Chain.a5 m' c = Cert.KernelIdeal.Chain.a5 m c := h5
    have e6 : Cert.ReferenceIdeal.Chain.a6 m' c = Cert.KernelIdeal.Chain.a6 m c := h6
    have e7 : Cert.ReferenceIdeal.Chain.a7 m' c = Cert.KernelIdeal.Chain.a7 m c := h7
    rw [Cert.ReferenceIdeal.Chain.ref_value m' c, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
